-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x128x128 : Shape := ⟨4, ![4, 128, 128, 128]⟩
abbrev S128 : Shape := ⟨1, ![128]⟩
abbrev S128x128 : Shape := ⟨2, ![128, 128]⟩
abbrev S512x128 : Shape := ⟨2, ![512, 128]⟩
abbrev S128x512 : Shape := ⟨2, ![128, 512]⟩
abbrev S_ : Shape := ⟨0, ![]⟩

class Facts : Prop where
  bcast_S_S4x128x128x128 : S_.BroadcastsInDim S4x128x128x128 (![] : Fin 0 → Fin S4x128x128x128.rank)
  reducesTo_S4x128x128x128_S_d0_1_2_3 : S4x128x128x128.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S128x512 : S_.BroadcastsInDim S128x512 (![] : Fin 0 → Fin S128x512.rank)
  reducesTo_S128x512_S_d0_1 : S128x512.ReducesTo [0, 1] S_

variable [Facts]

def fn_part3 {F : FTy → Type} [FloatOps F] (main_arg11 : FVec F S128x512 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x512 .f32 := Host.absf main_arg11
  let main_cst_20 : FVec F S_ .f32 := constant S_ .f32 0x7F800000#32
  let main_v55 : FVec F S128x512 .f32 := broadcastInDim S128x512 ![] bcast_S_S128x512 main_cst_20
  let main_v56 : IVec S128x512 1 := cmpf .olt main_v54 main_v55
  let main_c_21 : IVec S_ 1 := constantI S_ 1 1#1
  let main_v57 : IVec S_ 1 := (fun x v => Host.reduce IntOp.andi x v reducesTo_S128x512_S_d0_1 h_S_) main_v56 main_c_21
  let main_v58 : IVec S_ 1 := andi main_v53 main_v57
  main_v58

def fn_part2 {F : FTy → Type} [FloatOps F] (main_arg7 : FVec F S128x128 .f32) (main_arg8 : FVec F S128x128 .f32) (main_arg9 : FVec F S512x128 .f32) (main_arg10 : FVec F S128x128 .f32) (main_arg11 : FVec F S128x512 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128x128 .f32) (main_arg9 : FVec F S512x128 .f32) (main_arg10 : FVec F S128x128 .f32) (main_arg11 : FVec F S128x512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x128x128x128 .f32) (main_arg1 : FVec F S128 .f32) (main_arg2 : FVec F S128 .f32) (main_arg3 : FVec F S128 .f32) (main_arg4 : FVec F S128 .f32) (main_arg5 : FVec F S128 .f32) (main_arg6 : FVec F S128 .f32) (main_arg7 : FVec F S128x128 .f32) (main_arg8 : FVec F S128x128 .f32) (main_arg9 : FVec F S512x128 .f32) (main_arg10 : FVec F S128x128 .f32) (main_arg11 : FVec F S128x512 .f32) : IVec S_ 1 :=
  let main_v0 : FVec F S4x128x128x128 .f32 := Host.absf main_arg0
  let main_cst : FVec F S_ .f32 := constant S_ .f32 0x7F800000#32
  let main_v1 : FVec F S4x128x128x128 .f32 := broadcastInDim S4x128x128x128 ![] bcast_S_S4x128x128x128 main_cst
  let main_v2 : IVec S4x128x128x128 1 := cmpf .olt main_v0 main_v1
  let main_c : IVec S_ 1 := constantI S_ 1 1#1
  let main_v3 : IVec S_ 1 := (fun x v => Host.reduce IntOp.andi x v reducesTo_S4x128x128x128_S_d0_1_2_3 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S4x128x128x128 : Shape := ⟨4, ![4, 128, 128, 128]⟩
abbrev S128 : Shape := ⟨1, ![128]⟩
abbrev S128x128 : Shape := ⟨2, ![128, 128]⟩
abbrev S512x128 : Shape := ⟨2, ![512, 128]⟩
abbrev S128x512 : Shape := ⟨2, ![128, 512]⟩
abbrev S4x128x16384 : Shape := ⟨3, ![4, 128, 16384]⟩
abbrev S128x1 : Shape := ⟨2, ![128, 1]⟩
abbrev S640x128 : Shape := ⟨2, ![640, 128]⟩
abbrev S1x128x2048 : Shape := ⟨3, ![1, 128, 2048]⟩
abbrev S128x2048 : Shape := ⟨2, ![128, 2048]⟩
abbrev S2048 : Shape := ⟨1, ![2048]⟩
abbrev S1x2048 : Shape := ⟨2, ![1, 2048]⟩
abbrev S640x2048 : Shape := ⟨2, ![640, 2048]⟩
abbrev S512x2048 : Shape := ⟨2, ![512, 2048]⟩

abbrev nBuf : Space → Nat
  | .hbm => 26
  | .vmem => 14
  | .smem => 0
  | _ => 0

abbrev bufTy : (tb : Table) → Fin (tcTables nBuf tb) → BufTy
  | .hbm, ⟨0, _⟩ => ⟨S4x128x128x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S512x128, .f32⟩
  | .hbm, ⟨10, _⟩ => ⟨S128x128, .f32⟩
  | .hbm, ⟨11, _⟩ => ⟨S128x512, .f32⟩
  | .hbm, ⟨12, _⟩ => ⟨S4x128x16384, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x128, .bf16⟩
  | .hbm, ⟨20, _⟩ => ⟨S128x128, .bf16⟩
  | .hbm, ⟨21, _⟩ => ⟨S640x128, .f32⟩
  | .hbm, ⟨22, _⟩ => ⟨S640x128, .bf16⟩
  | .hbm, ⟨23, _⟩ => ⟨S128x512, .bf16⟩
  | .hbm, ⟨24, _⟩ => ⟨S4x128x16384, .f32⟩
  | .hbm, ⟨25, _⟩ => ⟨S4x128x128x128, .f32⟩
  | .local _ .vmem, ⟨0, _⟩ => ⟨S1x128x2048, .f32⟩
  | .local _ .vmem, ⟨1, _⟩ => ⟨S1x128x2048, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x128, .bf16⟩
  | .local _ .vmem, ⟨9, _⟩ => ⟨S128x128, .bf16⟩
  | .local _ .vmem, ⟨10, _⟩ => ⟨S640x128, .bf16⟩
  | .local _ .vmem, ⟨11, _⟩ => ⟨S128x512, .bf16⟩
  | .local _ .vmem, ⟨12, _⟩ => ⟨S1x128x2048, .f32⟩
  | .local _ .vmem, ⟨13, _⟩ => ⟨S1x128x2048, .f32⟩
  | _, _ => ⟨S4x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S640x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S4x128x128x128_S4x128x16384 : S4x128x128x128.ShapeCasts S4x128x16384
  shapeCasts_S128_S128x1 : S128.ShapeCasts S128x1
  bitsLt_bf16_f32 : FTy.bits .bf16 < FTy.bits .f32
  concatenates_S512x128_S128x128_S640x128_d0 : Shape.Concatenates [S512x128, S128x128] S640x128 0
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x2048_S2048 : S128x2048.Reduces [0] S2048
  shapeCasts_S2048_S1x2048 : S2048.ShapeCasts S1x2048
  broadcasts_S1x2048_S128x2048 : S1x2048.Broadcasts S128x2048
  broadcasts_S128x1_S128x2048 : S128x1.Broadcasts S128x2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S640x128_S640x128_0_0 : ∀ a, (![0, 0] : Fin 2 → Nat) a + S640x128.size a ≤ S640x128.size a
  h_S640x128 : 0 < S640x128.numel
  shapeCasts_S640x128_S640x128 : S640x128.ShapeCasts S640x128
  slices_S640x2048_o0_0_S512x2048 : S640x2048.Slices ![0, 0] S512x2048
  slices_S640x2048_o512_0_S128x2048 : S640x2048.Slices ![512, 0] S128x2048
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S128x2048_S1x128x2048 : S128x2048.ShapeCasts S1x128x2048
  shapeCasts_S4x128x16384_S4x128x128x128 : S4x128x16384.ShapeCasts S4x128x128x128
  dot_S128x128_S128x2048_S128x2048_1_0_0_1_n_n_wf : DotDims.WF S128x128 S128x2048 S128x2048 [1] [0] [0] [1] [] []
  dot_S640x128_S128x2048_S640x2048_1_0_0_1_n_n_wf : DotDims.WF S640x128 S128x2048 S640x2048 [1] [0] [0] [1] [] []
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S4x128x16384.size a
  hwx0_0 : ∀ i : grid0.Coords, EltTy.bits .f32 = 32 ∨ (Rect.block (s := S4x128x16384) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S640x128.size a ≤ S640x128.size a
  hwx0_9 : ∀ i : grid0.Coords, EltTy.bits .bf16 = 32 ∨ (Rect.block (s := S640x128) S640x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S128x512.size a
  hwx0_10 : ∀ i : grid0.Coords, EltTy.bits .bf16 = 32 ∨ (Rect.block (s := S128x512) S128x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x2048.size a ≤ S4x128x16384.size a
  hwx0_11 : ∀ i : grid0.Coords, EltTy.bits .f32 = 32 ∨ (Rect.block (s := S4x128x16384) S1x128x2048.size (cc0_transform_11 i) (hinb0_11 i)).WholeWords (EltTy.packing .f32)

variable [Facts₀]

def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S640x128_S128x2048_S640x2048_1_0_0_1_n_n : DotDims S640x128 S128x2048 S640x2048 where
  lhsContracting := [1]
  rhsContracting := [0]
  lhsNonContracting := [0]
  rhsNonContracting := [1]
  lhsBatch := []
  rhsBatch := []
  wf := dot_S640x128_S128x2048_S640x2048_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_v0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S640x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S128x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x128x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x128x128x128 : Shape := ⟨4, ![4, 128, 128, 128]⟩
abbrev S128 : Shape := ⟨1, ![128]⟩
abbrev S128x128 : Shape := ⟨2, ![128, 128]⟩
abbrev S512x128 : Shape := ⟨2, ![512, 128]⟩
abbrev S128x512 : Shape := ⟨2, ![128, 512]⟩
abbrev S4x128x16384 : Shape := ⟨3, ![4, 128, 16384]⟩
abbrev S4x16384x128 : Shape := ⟨3, ![4, 16384, 128]⟩
abbrev S_ : Shape := ⟨0, ![]⟩
abbrev S4x16384 : Shape := ⟨2, ![4, 16384]⟩
abbrev S4x16384x1 : Shape := ⟨3, ![4, 16384, 1]⟩
abbrev S1x1x128 : Shape := ⟨3, ![1, 1, 128]⟩
abbrev S4x16384x512 : Shape := ⟨3, ![4, 16384, 512]⟩

abbrev nBuf : Space → Nat
  | .hbm => 255
  | .vmem => 0
  | .smem => 0
  | _ => 0

abbrev hbmTy0_0 (i : Nat) : BufTy := match i % 128 with
  | 0 => ⟨S4x128x128x128, .f32⟩
  | 1 => ⟨S128, .f32⟩
  | 2 => ⟨S128, .f32⟩
  | 3 => ⟨S128, .f32⟩
  | 4 => ⟨S128, .f32⟩
  | 5 => ⟨S128, .f32⟩
  | 6 => ⟨S128, .f32⟩
  | 7 => ⟨S128x128, .f32⟩
  | 8 => ⟨S128x128, .f32⟩
  | 9 => ⟨S512x128, .f32⟩
  | 10 => ⟨S128x128, .f32⟩
  | 11 => ⟨S128x512, .f32⟩
  | 12 => ⟨S4x128x16384, .f32⟩
  | 13 => ⟨S4x16384x128, .f32⟩
  | 14 => ⟨S_, .f32⟩
  | 15 => ⟨S4x16384, .f32⟩
  | 16 => ⟨S4x16384x1, .f32⟩
  | 17 => ⟨S_, .f32⟩
  | 18 => ⟨S4x16384x1, .f32⟩
  | 19 => ⟨S4x16384x1, .f32⟩
  | 20 => ⟨S4x16384x128, .f32⟩
  | 21 => ⟨S4x16384x128, .f32⟩
  | 22 => ⟨S4x16384x128, .f32⟩
  | 23 => ⟨S_, .f32⟩
  | 24 => ⟨S4x16384, .f32⟩
  | 25 => ⟨S4x16384x1, .f32⟩
  | 26 => ⟨S_, .f32⟩
  | 27 => ⟨S4x16384x1, .f32⟩
  | 28 => ⟨S4x16384x1, .f32⟩
  | 29 => ⟨S4x16384x128, .f32⟩
  | 30 => ⟨S4x16384x128, .f32⟩
  | 31 => ⟨S_, .f32⟩
  | 32 => ⟨S4x16384x1, .f32⟩
  | 33 => ⟨S4x16384x1, .f32⟩
  | 34 => ⟨S4x16384x1, .f32⟩
  | 35 => ⟨S4x16384x128, .f32⟩
  | 36 => ⟨S4x16384x128, .f32⟩
  | 37 => ⟨S1x1x128, .f32⟩
  | 38 => ⟨S4x16384x128, .f32⟩
  | 39 => ⟨S4x16384x128, .f32⟩
  | 40 => ⟨S1x1x128, .f32⟩
  | 41 => ⟨S4x16384x128, .f32⟩
  | 42 => ⟨S4x16384x128, .f32⟩
  | 43 => ⟨S_, .f32⟩
  | 44 => ⟨S4x16384, .f32⟩
  | 45 => ⟨S4x16384x1, .f32⟩
  | 46 => ⟨S_, .f32⟩
  | 47 => ⟨S4x16384x1, .f32⟩
  | 48 => ⟨S4x16384x1, .f32⟩
  | 49 => ⟨S4x16384x128, .f32⟩
  | 50 => ⟨S4x16384x128, .f32⟩
  | 51 => ⟨S4x16384x128, .f32⟩
  | 52 => ⟨S_, .f32⟩
  | 53 => ⟨S4x16384, .f32⟩
  | 54 => ⟨S4x16384x1, .f32⟩
  | 55 => ⟨S_, .f32⟩
  | 56 => ⟨S4x16384x1, .f32⟩
  | 57 => ⟨S4x16384x1, .f32⟩
  | 58 => ⟨S4x16384x128, .f32⟩
  | 59 => ⟨S4x16384x128, .f32⟩
  | 60 => ⟨S_, .f32⟩
  | 61 => ⟨S4x16384x1, .f32⟩
  | 62 => ⟨S4x16384x1, .f32⟩
  | 63 => ⟨S4x16384x1, .f32⟩
  | 64 => ⟨S4x16384x128, .f32⟩
  | 65 => ⟨S4x16384x128, .f32⟩
  | 66 => ⟨S1x1x128, .f32⟩
  | 67 => ⟨S4x16384x128, .f32⟩
  | 68 => ⟨S4x16384x128, .f32⟩
  | 69 => ⟨S1x1x128, .f32⟩
  | 70 => ⟨S4x16384x128, .f32⟩
  | 71 => ⟨S4x16384x128, .f32⟩
  | 72 => ⟨S4x16384x128, .f32⟩
  | 73 => ⟨S4x16384x128, .f32⟩
  | 74 => ⟨S_, .f32⟩
  | 75 => ⟨S4x16384x128, .f32⟩
  | 76 => ⟨S4x16384x128, .f32⟩
  | 77 => ⟨S_, .f32⟩
  | 78 => ⟨S4x16384x128, .f32⟩
  | 79 => ⟨S4x16384x128, .f32⟩
  | 80 => ⟨S4x16384x128, .f32⟩
  | 81 => ⟨S4x16384x128, .f32⟩
  | 82 => ⟨S4x16384x128, .f32⟩
  | 83 => ⟨S_, .f32⟩
  | 84 => ⟨S4x16384, .f32⟩
  | 85 => ⟨S4x16384x1, .f32⟩
  | 86 => ⟨S_, .f32⟩
  | 87 => ⟨S4x16384x1, .f32⟩
  | 88 => ⟨S4x16384x1, .f32⟩
  | 89 => ⟨S4x16384x128, .f32⟩
  | 90 => ⟨S4x16384x128, .f32⟩
  | 91 => ⟨S4x16384x128, .f32⟩
  | 92 => ⟨S_, .f32⟩
  | 93 => ⟨S4x16384, .f32⟩
  | 94 => ⟨S4x16384x1, .f32⟩
  | 95 => ⟨S_, .f32⟩
  | 96 => ⟨S4x16384x1, .f32⟩
  | 97 => ⟨S4x16384x1, .f32⟩
  | 98 => ⟨S4x16384x128, .f32⟩
  | 99 => ⟨S4x16384x128, .f32⟩
  | 100 => ⟨S_, .f32⟩
  | 101 => ⟨S4x16384x1, .f32⟩
  | 102 => ⟨S4x16384x1, .f32⟩
  | 103 => ⟨S4x16384x1, .f32⟩
  | 104 => ⟨S4x16384x128, .f32⟩
  | 105 => ⟨S4x16384x128, .f32⟩
  | 106 => ⟨S1x1x128, .f32⟩
  | 107 => ⟨S4x16384x128, .f32⟩
  | 108 => ⟨S4x16384x128, .f32⟩
  | 109 => ⟨S1x1x128, .f32⟩
  | 110 => ⟨S4x16384x128, .f32⟩
  | 111 => ⟨S4x16384x128, .f32⟩
  | 112 => ⟨S4x16384x128, .f32⟩
  | 113 => ⟨S4x16384x512, .f32⟩
  | 114 => ⟨S_, .f32⟩
  | 115 => ⟨S4x16384x512, .f32⟩
  | 116 => ⟨S4x16384x512, .f32⟩
  | 117 => ⟨S4x16384x512, .f32⟩
  | 118 => ⟨S4x16384x128, .f32⟩
  | 119 => ⟨S4x16384x128, .f32⟩
  | 120 => ⟨S4x16384x128, .f32⟩
  | 121 => ⟨S4x16384x128, .f32⟩
  | 122 => ⟨S_, .f32⟩
  | 123 => ⟨S4x16384x128, .f32⟩
  | 124 => ⟨S4x16384x128, .f32⟩
  | 125 => ⟨S_, .f32⟩
  | 126 => ⟨S4x16384x128, .f32⟩
  | 127 => ⟨S4x16384x128, .f32⟩
  | _ => ⟨S4x128x128x128, .f32⟩

abbrev hbmTy0_1 (i : Nat) : BufTy := match i % 128 with
  | 0 => ⟨S4x16384x128, .f32⟩
  | 1 => ⟨S4x16384x128, .f32⟩
  | 2 => ⟨S4x128x16384, .f32⟩
  | 3 => ⟨S4x128x128x128, .f32⟩
  | 4 => ⟨S4x128x128x128, .f32⟩
  | 5 => ⟨S4x128x16384, .f32⟩
  | 6 => ⟨S4x16384x128, .f32⟩
  | 7 => ⟨S_, .f32⟩
  | 8 => ⟨S4x16384, .f32⟩
  | 9 => ⟨S4x16384x1, .f32⟩
  | 10 => ⟨S_, .f32⟩
  | 11 => ⟨S4x16384x1, .f32⟩
  | 12 => ⟨S4x16384x1, .f32⟩
  | 13 => ⟨S4x16384x128, .f32⟩
  | 14 => ⟨S4x16384x128, .f32⟩
  | 15 => ⟨S4x16384x128, .f32⟩
  | 16 => ⟨S_, .f32⟩
  | 17 => ⟨S4x16384, .f32⟩
  | 18 => ⟨S4x16384x1, .f32⟩
  | 19 => ⟨S_, .f32⟩
  | 20 => ⟨S4x16384x1, .f32⟩
  | 21 => ⟨S4x16384x1, .f32⟩
  | 22 => ⟨S4x16384x128, .f32⟩
  | 23 => ⟨S4x16384x128, .f32⟩
  | 24 => ⟨S_, .f32⟩
  | 25 => ⟨S4x16384x1, .f32⟩
  | 26 => ⟨S4x16384x1, .f32⟩
  | 27 => ⟨S4x16384x1, .f32⟩
  | 28 => ⟨S4x16384x128, .f32⟩
  | 29 => ⟨S4x16384x128, .f32⟩
  | 30 => ⟨S1x1x128, .f32⟩
  | 31 => ⟨S4x16384x128, .f32⟩
  | 32 => ⟨S4x16384x128, .f32⟩
  | 33 => ⟨S1x1x128, .f32⟩
  | 34 => ⟨S4x16384x128, .f32⟩
  | 35 => ⟨S4x16384x128, .f32⟩
  | 36 => ⟨S_, .f32⟩
  | 37 => ⟨S4x16384, .f32⟩
  | 38 => ⟨S4x16384x1, .f32⟩
  | 39 => ⟨S_, .f32⟩
  | 40 => ⟨S4x16384x1, .f32⟩
  | 41 => ⟨S4x16384x1, .f32⟩
  | 42 => ⟨S4x16384x128, .f32⟩
  | 43 => ⟨S4x16384x128, .f32⟩
  | 44 => ⟨S4x16384x128, .f32⟩
  | 45 => ⟨S_, .f32⟩
  | 46 => ⟨S4x16384, .f32⟩
  | 47 => ⟨S4x16384x1, .f32⟩
  | 48 => ⟨S_, .f32⟩
  | 49 => ⟨S4x16384x1, .f32⟩
  | 50 => ⟨S4x16384x1, .f32⟩
  | 51 => ⟨S4x16384x128, .f32⟩
  | 52 => ⟨S4x16384x128, .f32⟩
  | 53 => ⟨S_, .f32⟩
  | 54 => ⟨S4x16384x1, .f32⟩
  | 55 => ⟨S4x16384x1, .f32⟩
  | 56 => ⟨S4x16384x1, .f32⟩
  | 57 => ⟨S4x16384x128, .f32⟩
  | 58 => ⟨S4x16384x128, .f32⟩
  | 59 => ⟨S1x1x128, .f32⟩
  | 60 => ⟨S4x16384x128, .f32⟩
  | 61 => ⟨S4x16384x128, .f32⟩
  | 62 => ⟨S1x1x128, .f32⟩
  | 63 => ⟨S4x16384x128, .f32⟩
  | 64 => ⟨S4x16384x128, .f32⟩
  | 65 => ⟨S4x16384x128, .f32⟩
  | 66 => ⟨S4x16384x128, .f32⟩
  | 67 => ⟨S_, .f32⟩
  | 68 => ⟨S4x16384x128, .f32⟩
  | 69 => ⟨S4x16384x128, .f32⟩
  | 70 => ⟨S_, .f32⟩
  | 71 => ⟨S4x16384x128, .f32⟩
  | 72 => ⟨S4x16384x128, .f32⟩
  | 73 => ⟨S4x16384x128, .f32⟩
  | 74 => ⟨S4x16384x128, .f32⟩
  | 75 => ⟨S4x16384x128, .f32⟩
  | 76 => ⟨S_, .f32⟩
  | 77 => ⟨S4x16384, .f32⟩
  | 78 => ⟨S4x16384x1, .f32⟩
  | 79 => ⟨S_, .f32⟩
  | 80 => ⟨S4x16384x1, .f32⟩
  | 81 => ⟨S4x16384x1, .f32⟩
  | 82 => ⟨S4x16384x128, .f32⟩
  | 83 => ⟨S4x16384x128, .f32⟩
  | 84 => ⟨S4x16384x128, .f32⟩
  | 85 => ⟨S_, .f32⟩
  | 86 => ⟨S4x16384, .f32⟩
  | 87 => ⟨S4x16384x1, .f32⟩
  | 88 => ⟨S_, .f32⟩
  | 89 => ⟨S4x16384x1, .f32⟩
  | 90 => ⟨S4x16384x1, .f32⟩
  | 91 => ⟨S4x16384x128, .f32⟩
  | 92 => ⟨S4x16384x128, .f32⟩
  | 93 => ⟨S_, .f32⟩
  | 94 => ⟨S4x16384x1, .f32⟩
  | 95 => ⟨S4x16384x1, .f32⟩
  | 96 => ⟨S4x16384x1, .f32⟩
  | 97 => ⟨S4x16384x128, .f32⟩
  | 98 => ⟨S4x16384x128, .f32⟩
  | 99 => ⟨S1x1x128, .f32⟩
  | 100 => ⟨S4x16384x128, .f32⟩
  | 101 => ⟨S4x16384x128, .f32⟩
  | 102 => ⟨S1x1x128, .f32⟩
  | 103 => ⟨S4x16384x128, .f32⟩
  | 104 => ⟨S4x16384x128, .f32⟩
  | 105 => ⟨S4x16384x128, .f32⟩
  | 106 => ⟨S4x16384x512, .f32⟩
  | 107 => ⟨S_, .f32⟩
  | 108 => ⟨S4x16384x512, .f32⟩
  | 109 => ⟨S4x16384x512, .f32⟩
  | 110 => ⟨S4x16384x512, .f32⟩
  | 111 => ⟨S4x16384x128, .f32⟩
  | 112 => ⟨S4x16384x128, .f32⟩
  | 113 => ⟨S4x16384x128, .f32⟩
  | 114 => ⟨S4x16384x128, .f32⟩
  | 115 => ⟨S_, .f32⟩
  | 116 => ⟨S4x16384x128, .f32⟩
  | 117 => ⟨S4x16384x128, .f32⟩
  | 118 => ⟨S_, .f32⟩
  | 119 => ⟨S4x16384x128, .f32⟩
  | 120 => ⟨S4x16384x128, .f32⟩
  | 121 => ⟨S4x16384x128, .f32⟩
  | 122 => ⟨S4x16384x128, .f32⟩
  | 123 => ⟨S4x128x16384, .f32⟩
  | 124 => ⟨S4x128x128x128, .f32⟩
  | 125 => ⟨S4x128x128x128, .f32⟩
  | 126 => ⟨S4x128x128x128, .f32⟩
  | _ => ⟨S4x128x128x128, .f32⟩

abbrev hbmTy (i : Nat) : BufTy := match i / 128 with
  | 0 => hbmTy0_0 i
  | 1 => hbmTy0_1 i
  | _ => ⟨S4x128x128x128, .f32⟩

abbrev bufTy : (tb : Table) → Fin (tcTables nBuf tb) → BufTy
  | .hbm, ⟨i, _⟩ => hbmTy i
  | _, _ => ⟨S4x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call0_cst : Ref sig .tc := ⟨.hbm, 114, rfl⟩
abbrev main_call0_v0 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_18 : Ref sig .tc := ⟨.hbm, 135, rfl⟩
abbrev main_v102 : Ref sig .tc := ⟨.hbm, 136, rfl⟩
abbrev main_v103 : Ref sig .tc := ⟨.hbm, 137, rfl⟩
abbrev main_cst_19 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_20 : Ref sig .tc := ⟨.hbm, 144, rfl⟩
abbrev main_v109 : Ref sig .tc := ⟨.hbm, 145, rfl⟩
abbrev main_v110 : Ref sig .tc := ⟨.hbm, 146, rfl⟩
abbrev main_cst_21 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_22 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_23 : Ref sig .tc := ⟨.hbm, 164, rfl⟩
abbrev main_v126 : Ref sig .tc := ⟨.hbm, 165, rfl⟩
abbrev main_v127 : Ref sig .tc := ⟨.hbm, 166, rfl⟩
abbrev main_cst_24 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_25 : Ref sig .tc := ⟨.hbm, 173, rfl⟩
abbrev main_v133 : Ref sig .tc := ⟨.hbm, 174, rfl⟩
abbrev main_v134 : Ref sig .tc := ⟨.hbm, 175, rfl⟩
abbrev main_cst_26 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_27 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_28 : Ref sig .tc := ⟨.hbm, 195, rfl⟩
abbrev main_v152 : Ref sig .tc := ⟨.hbm, 196, rfl⟩
abbrev main_v153 : Ref sig .tc := ⟨.hbm, 197, rfl⟩
abbrev main_cst_29 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_30 : Ref sig .tc := ⟨.hbm, 204, rfl⟩
abbrev main_v159 : Ref sig .tc := ⟨.hbm, 205, rfl⟩
abbrev main_v160 : Ref sig .tc := ⟨.hbm, 206, rfl⟩
abbrev main_cst_31 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_32 : Ref sig .tc := ⟨.hbm, 213, rfl⟩
abbrev main_v166 : Ref sig .tc := ⟨.hbm, 214, rfl⟩
abbrev main_v167 : Ref sig .tc := ⟨.hbm, 215, rfl⟩
abbrev main_cst_33 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_cst_34 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_call1_cst : Ref sig .tc := ⟨.hbm, 235, rfl⟩
abbrev main_call1_v0 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_cst_35 : Ref sig .tc := ⟨.hbm, 243, rfl⟩
abbrev main_v191 : Ref sig .tc := ⟨.hbm, 244, rfl⟩
abbrev main_v192 : Ref sig .tc := ⟨.hbm, 245, rfl⟩
abbrev main_cst_36 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩

abbrev nD : Nat := 1
abbrev τ : Topo := Topo.v7x

variable {F : FTy → Type} [FloatOps F]

class Facts₀ : Prop where
  shapeCasts_S4x128x128x128_S4x128x16384 : S4x128x128x128.ShapeCasts S4x128x16384
  transposes_S4x128x16384_S4x16384x128_0_2_1 : S4x128x16384.Transposes [0, 2, 1] S4x16384x128
  reducesTo_S4x16384x128_S4x16384_d2 : S4x16384x128.ReducesTo [2] S4x16384
  h_S_ : 0 < S_.numel
  bcast_S4x16384_S4x16384x1_0_1 : S4x16384.BroadcastsInDim S4x16384x1 (![0, 1] : Fin 2 → Fin S4x16384x1.rank)
  bcast_S_S4x16384x1 : S_.BroadcastsInDim S4x16384x1 (![] : Fin 0 → Fin S4x16384x1.rank)
  bcast_S4x16384x1_S4x16384x128_0_1_2 : S4x16384x1.BroadcastsInDim S4x16384x128 (![0, 1, 2] : Fin 3 → Fin S4x16384x128.rank)
  bcast_S128_S1x1x128_2 : S128.BroadcastsInDim S1x1x128 (![2] : Fin 1 → Fin S1x1x128.rank)
  bcast_S1x1x128_S4x16384x128_0_1_2 : S1x1x128.BroadcastsInDim S4x16384x128 (![0, 1, 2] : Fin 3 → Fin S4x16384x128.rank)
  bcast_S_S4x16384x128 : S_.BroadcastsInDim S4x16384x128 (![] : Fin 0 → Fin S4x16384x128.rank)
  bcast_S_S4x16384x512 : S_.BroadcastsInDim S4x16384x512 (![] : Fin 0 → Fin S4x16384x512.rank)
  transposes_S4x16384x128_S4x128x16384_0_2_1 : S4x16384x128.Transposes [0, 2, 1] S4x128x16384
  shapeCasts_S4x128x16384_S4x128x128x128 : S4x128x16384.ShapeCasts S4x128x128x128
  transposes_S4x128x128x128_S4x128x128x128_0_1_3_2 : S4x128x128x128.Transposes [0, 1, 3, 2] S4x128x128x128
  dot_S4x16384x128_S128x128_S4x16384x128_2_1_01_0_n_n_wf : DotDims.WF S4x16384x128 S128x128 S4x16384x128 [2] [1] [0, 1] [0] [] []
  dot_S4x16384x128_S512x128_S4x16384x512_2_1_01_0_n_n_wf : DotDims.WF S4x16384x128 S512x128 S4x16384x512 [2] [1] [0, 1] [0] [] []
  dot_S4x16384x512_S128x512_S4x16384x128_2_1_01_0_n_n_wf : DotDims.WF S4x16384x512 S128x512 S4x16384x128 [2] [1] [0, 1] [0] [] []

variable [Facts₀]

def dot_S4x16384x128_S128x128_S4x16384x128_2_1_01_0_n_n : DotDims S4x16384x128 S128x128 S4x16384x128 where
  lhsContracting := [2]
  rhsContracting := [1]
  lhsNonContracting := [0, 1]
  rhsNonContracting := [0]
  lhsBatch := []
  rhsBatch := []
  wf := dot_S4x16384x128_S128x128_S4x16384x128_2_1_01_0_n_n_wf
def dot_S4x16384x128_S512x128_S4x16384x512_2_1_01_0_n_n : DotDims S4x16384x128 S512x128 S4x16384x512 where
  lhsContracting := [2]
  rhsContracting := [1]
  lhsNonContracting := [0, 1]
  rhsNonContracting := [0]
  lhsBatch := []
  rhsBatch := []
  wf := dot_S4x16384x128_S512x128_S4x16384x512_2_1_01_0_n_n_wf
def dot_S4x16384x512_S128x512_S4x16384x128_2_1_01_0_n_n : DotDims S4x16384x512 S128x512 S4x16384x128 where
  lhsContracting := [2]
  rhsContracting := [1]
  lhsNonContracting := [0, 1]
  rhsNonContracting := [0]
  lhsBatch := []
  rhsBatch := []
  wf := dot_S4x16384x512_S128x512_S4x16384x128_2_1_01_0_n_n_wf

class Facts : Prop extends Facts₀ where

variable [Facts]
-- ==== Proof.Block.lean ====
/-
  One token of the block, as a function on extended reals.

  Every operation of the block acts on the 128 channel values of ONE spatial position: the three layer
  normalisations average over channels, and each projection contracts a channel axis. So the whole block is a map
  `block : (Fin 128 → EReal) → (Fin 128 → EReal)` applied position by position, and both programs are read against it:
  the channel-major program computes `2 * block x c`, the token-major one `block x c + block x c`
  (once directly, once through two spatial transpositions that cancel).
-/
import Idealize.ShloMosaic.PureOps.Ideal
import Idealize.ShloMosaic.PureOps.Ideal.Laws
import Idealize.ShloMosaic.Lib.ValueIdx

noncomputable section

namespace Cert.Block

open Idealize.ShloMosaic Idealize.ShloMosaic.ValueIdx

/-- The channel count `128.0` the means divide by, as its bit pattern reads. -/
abbrev cnt : EReal := Ideal.ofBits .f32 0x43000000#32
/-- The variance offset (the single-precision value nearest `1e-5`), the same pattern in both programs. -/
abbrev eps : EReal := Ideal.ofBits .f32 0x3727C5AC#32

/-- The mean over the channels. -/
def mean (v : Fin 128 → EReal) : EReal := Ideal.div (∑ k : Fin 128, v k) cnt

/-- A normalised channel, scaled: `(v c - μ) · (σ² + ε)^(-1/2) · g c`. -/
def norm (v g : Fin 128 → EReal) (c : Fin 128) : EReal :=
  (v c - mean v) * Ideal.rsqrt (mean (fun k => (v k - mean v) * (v k - mean v)) + eps) * g c

/-- Layer normalisation over the channels, with scale `g` and shift `b`. -/
def ln (v g b : Fin 128 → EReal) (c : Fin 128) : EReal := norm v g c + b c

/-- `σ(y) · y`. -/
def silu (y : EReal) : EReal := Ideal.logistic y * y

/-- A projection: row `o` of `W` against the vector `v`. -/
def mix {n k : Nat} (W : Fin n → Fin k → EReal) (v : Fin k → EReal) (o : Fin n) : EReal := ∑ j : Fin k, W o j * v j

/-- The residual after the spatial-mix branch: `t + W_out (silu (ln t))`. -/
def spatial (t g b : Fin 128 → EReal) (Wout : Fin 128 → Fin 128 → EReal) (c : Fin 128) : EReal :=
  t c + mix Wout (fun k => silu (ln t g b k)) c

/-- The channel-mix branch on a whitened vector `w`: `σ(W_r w) · W_v (relu (W_k w))²`. -/
def channel (w : Fin 128 → EReal) (Wkey : Fin 512 → Fin 128 → EReal) (Wrec : Fin 128 → Fin 128 → EReal)
    (Wval : Fin 128 → Fin 512 → EReal) (c : Fin 128) : EReal :=
  Ideal.logistic (mix Wrec w c) * mix Wval (fun h => max (mix Wkey w h) 0 * max (mix Wkey w h) 0) c

/-- The block on one token. -/
def block (x g0 b0 g1 b1 g2 b2 : Fin 128 → EReal) (Wout Wwh : Fin 128 → Fin 128 → EReal)
    (Wkey : Fin 512 → Fin 128 → EReal) (Wrec : Fin 128 → Fin 128 → EReal) (Wval : Fin 128 → Fin 512 → EReal)
    (c : Fin 128) : EReal :=
  spatial (ln x g0 b0) g1 b1 Wout c
    + channel (mix Wwh (ln (spatial (ln x g0 b0) g1 b1 Wout) g2 b2)) Wkey Wrec Wval c

/-- `+0.0` reads as `0`. -/
theorem ofBits_zero : Ideal.ofBits .f32 0x00000000#32 = 0 := Ideal.ofBits_zero_f32

/-- `1.0` reads as `1`. -/
theorem ofBits_one : Ideal.ofBits .f32 0x3F800000#32 = 1 := by
  simp [Ideal.ofBits, Ideal.ieee, -EReal.coe_mul]; norm_num

/-- `2.0` reads as the real `2`. -/
theorem ofBits_two : Ideal.ofBits .f32 0x40000000#32 = ((2 : ℝ) : EReal) := by
  simp [Ideal.ofBits, Ideal.ieee, -EReal.coe_mul]; norm_num

/-- Doubling is adding a value to itself, at the infinities too. -/
theorem two_mul_eq_add (a : EReal) : ((2 : ℝ) : EReal) * a = a + a := by
  induction a using EReal.rec with
  | bot => rw [EReal.coe_mul_bot_of_pos (by norm_num : (0 : ℝ) < 2)]; rfl
  | coe r => rw [← EReal.coe_mul, ← EReal.coe_add, two_mul]
  | top => rw [EReal.coe_mul_top_of_pos (by norm_num : (0 : ℝ) < 2)]; rfl

/-- The logistic function spelled with negation, exponential, sum and quotient is the one operation. -/
theorem logistic_spelled (y : EReal) :
    Ideal.div (Ideal.ofBits .f32 0x3F800000#32) (Ideal.ofBits .f32 0x3F800000#32 + Ideal.exp (-y)) = Ideal.logistic y := by
  rw [ofBits_one]; rfl

/-- A projection written with the vector on the left of each product. -/
theorem mix_comm {n k : Nat} (W : Fin n → Fin k → EReal) (v : Fin k → EReal) (o : Fin n) :
    ∑ j : Fin k, v j * W o j = mix W v o :=
  Finset.sum_congr rfl fun j _ => mul_comm _ _

/-! ## The whole image -/

/-- The image's shape: batch, channel, height, width. -/
abbrev Img : Shape := ⟨4, ![4, 128, 128, 128]⟩

/-- The block at one pixel `(b, ·, h, w)`, at channel `c`: the token is the pixel's 128 channel values, the
    parameters are read off their arrays. -/
def pixel (x : Img.Idx → EReal) (g0 b0 g1 b1 g2 b2 : (⟨1, ![128]⟩ : Shape).Idx → EReal)
    (Wout Wwh : (⟨2, ![128, 128]⟩ : Shape).Idx → EReal) (Wkey : (⟨2, ![512, 128]⟩ : Shape).Idx → EReal)
    (Wrec : (⟨2, ![128, 128]⟩ : Shape).Idx → EReal) (Wval : (⟨2, ![128, 512]⟩ : Shape).Idx → EReal)
    (b : Fin 4) (c h w : Fin 128) : EReal :=
  block (fun k => x (ix4 b k h w)) (fun k => g0 (ix1 k)) (fun k => b0 (ix1 k)) (fun k => g1 (ix1 k)) (fun k => b1 (ix1 k))
    (fun k => g2 (ix1 k)) (fun k => b2 (ix1 k)) (fun o k => Wout (ix2 o k)) (fun o k => Wwh (ix2 o k))
    (fun o k => Wkey (ix2 o k)) (fun o k => Wrec (ix2 o k)) (fun o k => Wval (ix2 o k)) c

/-- What both programs compute: at every pixel and channel, the block's value added to itself. -/
def whole (x : Img.Idx → EReal) (g0 b0 g1 b1 g2 b2 : (⟨1, ![128]⟩ : Shape).Idx → EReal)
    (Wout Wwh : (⟨2, ![128, 128]⟩ : Shape).Idx → EReal) (Wkey : (⟨2, ![512, 128]⟩ : Shape).Idx → EReal)
    (Wrec : (⟨2, ![128, 128]⟩ : Shape).Idx → EReal) (Wval : (⟨2, ![128, 512]⟩ : Shape).Idx → EReal) : Img.Idx → EReal :=
  fun i => pixel x g0 b0 g1 b1 g2 b2 Wout Wwh Wkey Wrec Wval (i 0) (i 1) (i 2) (i 3)
    + pixel x g0 b0 g1 b1 g2 b2 Wout Wwh Wkey Wrec Wval (i 0) (i 1) (i 2) (i 3)

theorem whole_apply (x : Img.Idx → EReal) (g0 b0 g1 b1 g2 b2 : (⟨1, ![128]⟩ : Shape).Idx → EReal)
    (Wout Wwh : (⟨2, ![128, 128]⟩ : Shape).Idx → EReal) (Wkey : (⟨2, ![512, 128]⟩ : Shape).Idx → EReal)
    (Wrec : (⟨2, ![128, 128]⟩ : Shape).Idx → EReal) (Wval : (⟨2, ![128, 512]⟩ : Shape).Idx → EReal) (b : Fin 4) (c h w : Fin 128) :
    whole x g0 b0 g1 b1 g2 b2 Wout Wwh Wkey Wrec Wval (ix4 b c h w)
      = pixel x g0 b0 g1 b1 g2 b2 Wout Wwh Wkey Wrec Wval b c h w + pixel x g0 b0 g1 b1 g2 b2 Wout Wwh Wkey Wrec Wval b c h w := rfl

end Cert.Block

end
-- ==== Proof.RefOps.lean ====
/-
  The token-major program's operations, read at an index.

  Its tensors are `[4, 16384, 128]`: batch, spatial position, channel. Every operation below acts along the channel
  axis only, so a stage read at `(b, t, c)` is the token-level function (Block.lean) of the input's row `(b, t, ·)`.
  The stages are stated for an ARBITRARY input array, since the program runs the same sequence twice, on the image and
  on its spatial transpose.
-/
import proofs.«157856_j43731357008661_2_alg».proof.ReferenceIdeal
import proofs.«157856_j43731357008661_2_alg».proof.Proof.Gen.ReferenceIdeal
import proofs.«157856_j43731357008661_2_alg».proof.Proof.Block
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-! ## Elementary operations at an index -/

theorem hdivf_apply {s : Shape} (x y : FVec Ideal s .f32) (i : s.Idx) : Host.divf x y i = Ideal.div (x i) (y i) := rfl
theorem hrsqrt_apply {s : Shape} (x : FVec Ideal s .f32) (i : s.Idx) : Host.rsqrt x i = Ideal.rsqrt (x i) := rfl
theorem hnegf_apply {s : Shape} (x : FVec Ideal s .f32) (i : s.Idx) : Host.negf x i = -(x i) := rfl
theorem hexp_apply {s : Shape} (x : FVec Ideal s .f32) (i : s.Idx) : Host.exp x i = Ideal.exp (x i) := rfl

/-- A sum over the channel axis, read at `(b, t)`. -/
theorem rowsum_apply (A : FVec Ideal S4x16384x128 .f32) (z : FVec Ideal S_ .f32) (b : Fin 4) (t : Fin 16384) :
    Host.reduceAdd A z reducesTo_S4x16384x128_S4x16384_d2 h_S_ (ix2 b t)
      = z (Shape.Idx.first h_S_) + ∑ k : Fin 128, A (ix3 b t k) := by
  simp only [Host.reduceAdd, Ideal.hostReduceAdd_def]
  rw [Ideal.hostReduceAdd_single reducesTo_S4x16384x128_S4x16384_d2 (by decide)]
  refine congrArg (_ + ·) (Finset.sum_congr rfl fun k _ => ?_)
  exact congrArg A (funext fun a => Fin.ext (by match a with | ⟨0, _⟩ => rfl | ⟨1, _⟩ => rfl | ⟨2, _⟩ => rfl))

/-- A per-token value given a unit channel axis. -/
theorem bc_tok_apply (dims : Fin S4x16384.rank → Fin S4x16384x1.rank) (h : S4x16384.BroadcastsInDim S4x16384x1 dims)
    (hd : dims = ![0, 1]) (y : FVec Ideal S4x16384 .f32) (b : Fin 4) (t : Fin 16384) (u : Fin 1) :
    broadcastInDim S4x16384x1 dims h y (ix3 b t u) = y (ix2 b t) := by
  subst hd
  exact broadcastInDim_apply _ h y (ix3 b t u) (ix2 b t) (fun a => match a with
    | ⟨0, _⟩ => by show b.val = if (4 : Nat) = 1 then 0 else b.val; rw [if_neg (by decide)]
    | ⟨1, _⟩ => by show t.val = if (16384 : Nat) = 1 then 0 else t.val; rw [if_neg (by decide)])

/-- A per-token value spread over the channels. -/
theorem bc_chan_apply (dims : Fin S4x16384x1.rank → Fin S4x16384x128.rank) (h : S4x16384x1.BroadcastsInDim S4x16384x128 dims)
    (hd : dims = ![0, 1, 2]) (y : FVec Ideal S4x16384x1 .f32) (b : Fin 4) (t : Fin 16384) (c : Fin 128) :
    broadcastInDim S4x16384x128 dims h y (ix3 b t c) = y (ix3 b t (0 : Fin 1)) := by
  subst hd
  exact broadcastInDim_apply _ h y (ix3 b t c) (ix3 b t (0 : Fin 1)) (fun a => match a with
    | ⟨0, _⟩ => by show b.val = if (4 : Nat) = 1 then 0 else b.val; rw [if_neg (by decide)]
    | ⟨1, _⟩ => by show t.val = if (16384 : Nat) = 1 then 0 else t.val; rw [if_neg (by decide)]
    | ⟨2, _⟩ => by show 0 = if (1 : Nat) = 1 then 0 else c.val; rw [if_pos rfl])

/-- A per-channel parameter spread over batch and position. -/
theorem bc_par_apply (d1 : Fin S1x1x128.rank → Fin S4x16384x128.rank) (h1 : S1x1x128.BroadcastsInDim S4x16384x128 d1) (hd1 : d1 = ![0, 1, 2])
    (d2 : Fin S128.rank → Fin S1x1x128.rank) (h2 : S128.BroadcastsInDim S1x1x128 d2) (hd2 : d2 = ![2])
    (g : FVec Ideal S128 .f32) (b : Fin 4) (t : Fin 16384) (c : Fin 128) :
    broadcastInDim S4x16384x128 d1 h1 (broadcastInDim S1x1x128 d2 h2 g) (ix3 b t c) = g (ix1 c) := by
  subst hd1; subst hd2
  rw [broadcastInDim_apply _ h1 _ (ix3 b t c) (ix3 (0 : Fin 1) (0 : Fin 1) c) (fun a => match a with
    | ⟨0, _⟩ => by show 0 = if (1 : Nat) = 1 then 0 else b.val; rw [if_pos rfl]
    | ⟨1, _⟩ => by show 0 = if (1 : Nat) = 1 then 0 else t.val; rw [if_pos rfl]
    | ⟨2, _⟩ => by show c.val = if (128 : Nat) = 1 then 0 else c.val; rw [if_neg (by decide)])]
  exact broadcastInDim_apply _ h2 g (ix3 (0 : Fin 1) (0 : Fin 1) c) (ix1 c) (fun a => match a with
    | ⟨0, _⟩ => by show c.val = if (128 : Nat) = 1 then 0 else c.val; rw [if_neg (by decide)])

/-- A scalar spread over a whole array. -/
theorem bc_scalar_apply {t : Shape} (dims : Fin S_.rank → Fin t.rank) (h : S_.BroadcastsInDim t dims) (y : FVec Ideal S_ .f32) (i : t.Idx) :
    broadcastInDim t dims h y i = y ix0 :=
  broadcastInDim_apply dims h y i ix0 (fun a => a.elim0)

theorem dotCC_l0 (i : S4x16384x128.Idx) (q : dot_S4x16384x128_S128x128_S4x16384x128_2_1_01_0_n_n.contr.Idx) : (dot_S4x16384x128_S128x128_S4x16384x128_2_1_01_0_n_n.lhsIdx i q 0).val = (i 0).val := by
  unfold DotDims.lhsIdx
  rw [dif_neg (show ¬(0 : Fin S4x16384x128.rank) ∈ dot_S4x16384x128_S128x128_S4x16384x128_2_1_01_0_n_n.lhsBatch by decide), dif_pos (show (0 : Fin S4x16384x128.rank) ∈ dot_S4x16384x128_S128x128_S4x16384x128_2_1_01_0_n_n.lhsNonContracting by decide)]
  rfl
theorem dotCC_l1 (i : S4x16384x128.Idx) (q : dot_S4x16384x128_S128x128_S4x16384x128_2_1_01_0_n_n.contr.Idx) : (dot_S4x16384x128_S128x128_S4x16384x128_2_1_01_0_n_n.lhsIdx i q 1).val = (i 1).val := by
  unfold DotDims.lhsIdx
  rw [dif_neg (show ¬(1 : Fin S4x16384x128.rank) ∈ dot_S4x16384x128_S128x128_S4x16384x128_2_1_01_0_n_n.lhsBatch by decide), dif_pos (show (1 : Fin S4x16384x128.rank) ∈ dot_S4x16384x128_S128x128_S4x16384x128_2_1_01_0_n_n.lhsNonContracting by decide)]
  rfl
theorem dotCC_r0 (i : S4x16384x128.Idx) (q : dot_S4x16384x128_S128x128_S4x16384x128_2_1_01_0_n_n.contr.Idx) : (dot_S4x16384x128_S128x128_S4x16384x128_2_1_01_0_n_n.rhsIdx i q 0).val = (i 2).val := by
  unfold DotDims.rhsIdx
  rw [dif_neg (show ¬(0 : Fin S128x128.rank) ∈ dot_S4x16384x128_S128x128_S4x16384x128_2_1_01_0_n_n.rhsBatch by decide), dif_pos (show (0 : Fin S128x128.rank) ∈ dot_S4x16384x128_S128x128_S4x16384x128_2_1_01_0_n_n.rhsNonContracting by decide)]
  rfl
/-- The contraction of the last axis of `Y` with the last axis of `W`, read at `(b, t, o)`: row `o` of `W` against `Y (b, t, ·)`. -/
theorem dotCC_apply (Y : FVec Ideal S4x16384x128 .f32) (W : FVec Ideal S128x128 .f32) (b : Fin 4) (t : Fin 16384) (o : Fin 128) :
    Host.dotGeneral dot_S4x16384x128_S128x128_S4x16384x128_2_1_01_0_n_n none Y W (ix3 b t o) = Block.mix (fun o k => W (ix2 o k)) (fun k => Y (ix3 b t k)) o := by
  simp only [Host.dotGeneral]
  rw [Ideal.dotGeneral_apply, ← Equiv.sum_comp (ValueIdx.contrEquiv1 dot_S4x16384x128_S128x128_S4x16384x128_2_1_01_0_n_n 128 rfl rfl).symm, ← Block.mix_comm]
  refine Finset.sum_congr rfl fun k _ => ?_
  have hk := ValueIdx.contrEquiv1_symm_val dot_S4x16384x128_S128x128_S4x16384x128_2_1_01_0_n_n 128 rfl rfl k
  have el : dot_S4x16384x128_S128x128_S4x16384x128_2_1_01_0_n_n.lhsIdx (ix3 b t o) ((ValueIdx.contrEquiv1 dot_S4x16384x128_S128x128_S4x16384x128_2_1_01_0_n_n 128 rfl rfl).symm k) = ix3 b t k := funext fun a => Fin.ext (by
    match a with
    | ⟨0, _⟩ => exact dotCC_l0 _ _
    | ⟨1, _⟩ => exact dotCC_l1 _ _
    | ⟨2, _⟩ => exact ((dot_S4x16384x128_S128x128_S4x16384x128_2_1_01_0_n_n.lhsIdx_val_of_single rfl _ _).trans hk))
  have er : dot_S4x16384x128_S128x128_S4x16384x128_2_1_01_0_n_n.rhsIdx (ix3 b t o) ((ValueIdx.contrEquiv1 dot_S4x16384x128_S128x128_S4x16384x128_2_1_01_0_n_n 128 rfl rfl).symm k) = ix2 o k := funext fun a => Fin.ext (by
    match a with
    | ⟨0, _⟩ => exact dotCC_r0 _ _
    | ⟨1, _⟩ => exact ((dot_S4x16384x128_S128x128_S4x16384x128_2_1_01_0_n_n.rhsIdx_val_of_single rfl _ _).trans hk))
  rw [el, er]

theorem dotCH_l0 (i : S4x16384x512.Idx) (q : dot_S4x16384x128_S512x128_S4x16384x512_2_1_01_0_n_n.contr.Idx) : (dot_S4x16384x128_S512x128_S4x16384x512_2_1_01_0_n_n.lhsIdx i q 0).val = (i 0).val := by
  unfold DotDims.lhsIdx
  rw [dif_neg (show ¬(0 : Fin S4x16384x128.rank) ∈ dot_S4x16384x128_S512x128_S4x16384x512_2_1_01_0_n_n.lhsBatch by decide), dif_pos (show (0 : Fin S4x16384x128.rank) ∈ dot_S4x16384x128_S512x128_S4x16384x512_2_1_01_0_n_n.lhsNonContracting by decide)]
  rfl
theorem dotCH_l1 (i : S4x16384x512.Idx) (q : dot_S4x16384x128_S512x128_S4x16384x512_2_1_01_0_n_n.contr.Idx) : (dot_S4x16384x128_S512x128_S4x16384x512_2_1_01_0_n_n.lhsIdx i q 1).val = (i 1).val := by
  unfold DotDims.lhsIdx
  rw [dif_neg (show ¬(1 : Fin S4x16384x128.rank) ∈ dot_S4x16384x128_S512x128_S4x16384x512_2_1_01_0_n_n.lhsBatch by decide), dif_pos (show (1 : Fin S4x16384x128.rank) ∈ dot_S4x16384x128_S512x128_S4x16384x512_2_1_01_0_n_n.lhsNonContracting by decide)]
  rfl
theorem dotCH_r0 (i : S4x16384x512.Idx) (q : dot_S4x16384x128_S512x128_S4x16384x512_2_1_01_0_n_n.contr.Idx) : (dot_S4x16384x128_S512x128_S4x16384x512_2_1_01_0_n_n.rhsIdx i q 0).val = (i 2).val := by
  unfold DotDims.rhsIdx
  rw [dif_neg (show ¬(0 : Fin S512x128.rank) ∈ dot_S4x16384x128_S512x128_S4x16384x512_2_1_01_0_n_n.rhsBatch by decide), dif_pos (show (0 : Fin S512x128.rank) ∈ dot_S4x16384x128_S512x128_S4x16384x512_2_1_01_0_n_n.rhsNonContracting by decide)]
  rfl
/-- The contraction of the last axis of `Y` with the last axis of `W`, read at `(b, t, o)`: row `o` of `W` against `Y (b, t, ·)`. -/
theorem dotCH_apply (Y : FVec Ideal S4x16384x128 .f32) (W : FVec Ideal S512x128 .f32) (b : Fin 4) (t : Fin 16384) (o : Fin 512) :
    Host.dotGeneral dot_S4x16384x128_S512x128_S4x16384x512_2_1_01_0_n_n none Y W (ix3 b t o) = Block.mix (fun o k => W (ix2 o k)) (fun k => Y (ix3 b t k)) o := by
  simp only [Host.dotGeneral]
  rw [Ideal.dotGeneral_apply, ← Equiv.sum_comp (ValueIdx.contrEquiv1 dot_S4x16384x128_S512x128_S4x16384x512_2_1_01_0_n_n 128 rfl rfl).symm, ← Block.mix_comm]
  refine Finset.sum_congr rfl fun k _ => ?_
  have hk := ValueIdx.contrEquiv1_symm_val dot_S4x16384x128_S512x128_S4x16384x512_2_1_01_0_n_n 128 rfl rfl k
  have el : dot_S4x16384x128_S512x128_S4x16384x512_2_1_01_0_n_n.lhsIdx (ix3 b t o) ((ValueIdx.contrEquiv1 dot_S4x16384x128_S512x128_S4x16384x512_2_1_01_0_n_n 128 rfl rfl).symm k) = ix3 b t k := funext fun a => Fin.ext (by
    match a with
    | ⟨0, _⟩ => exact dotCH_l0 _ _
    | ⟨1, _⟩ => exact dotCH_l1 _ _
    | ⟨2, _⟩ => exact ((dot_S4x16384x128_S512x128_S4x16384x512_2_1_01_0_n_n.lhsIdx_val_of_single rfl _ _).trans hk))
  have er : dot_S4x16384x128_S512x128_S4x16384x512_2_1_01_0_n_n.rhsIdx (ix3 b t o) ((ValueIdx.contrEquiv1 dot_S4x16384x128_S512x128_S4x16384x512_2_1_01_0_n_n 128 rfl rfl).symm k) = ix2 o k := funext fun a => Fin.ext (by
    match a with
    | ⟨0, _⟩ => exact dotCH_r0 _ _
    | ⟨1, _⟩ => exact ((dot_S4x16384x128_S512x128_S4x16384x512_2_1_01_0_n_n.rhsIdx_val_of_single rfl _ _).trans hk))
  rw [el, er]

theorem dotHC_l0 (i : S4x16384x128.Idx) (q : dot_S4x16384x512_S128x512_S4x16384x128_2_1_01_0_n_n.contr.Idx) : (dot_S4x16384x512_S128x512_S4x16384x128_2_1_01_0_n_n.lhsIdx i q 0).val = (i 0).val := by
  unfold DotDims.lhsIdx
  rw [dif_neg (show ¬(0 : Fin S4x16384x512.rank) ∈ dot_S4x16384x512_S128x512_S4x16384x128_2_1_01_0_n_n.lhsBatch by decide), dif_pos (show (0 : Fin S4x16384x512.rank) ∈ dot_S4x16384x512_S128x512_S4x16384x128_2_1_01_0_n_n.lhsNonContracting by decide)]
  rfl
theorem dotHC_l1 (i : S4x16384x128.Idx) (q : dot_S4x16384x512_S128x512_S4x16384x128_2_1_01_0_n_n.contr.Idx) : (dot_S4x16384x512_S128x512_S4x16384x128_2_1_01_0_n_n.lhsIdx i q 1).val = (i 1).val := by
  unfold DotDims.lhsIdx
  rw [dif_neg (show ¬(1 : Fin S4x16384x512.rank) ∈ dot_S4x16384x512_S128x512_S4x16384x128_2_1_01_0_n_n.lhsBatch by decide), dif_pos (show (1 : Fin S4x16384x512.rank) ∈ dot_S4x16384x512_S128x512_S4x16384x128_2_1_01_0_n_n.lhsNonContracting by decide)]
  rfl
theorem dotHC_r0 (i : S4x16384x128.Idx) (q : dot_S4x16384x512_S128x512_S4x16384x128_2_1_01_0_n_n.contr.Idx) : (dot_S4x16384x512_S128x512_S4x16384x128_2_1_01_0_n_n.rhsIdx i q 0).val = (i 2).val := by
  unfold DotDims.rhsIdx
  rw [dif_neg (show ¬(0 : Fin S128x512.rank) ∈ dot_S4x16384x512_S128x512_S4x16384x128_2_1_01_0_n_n.rhsBatch by decide), dif_pos (show (0 : Fin S128x512.rank) ∈ dot_S4x16384x512_S128x512_S4x16384x128_2_1_01_0_n_n.rhsNonContracting by decide)]
  rfl
/-- The contraction of the last axis of `Y` with the last axis of `W`, read at `(b, t, o)`: row `o` of `W` against `Y (b, t, ·)`. -/
theorem dotHC_apply (Y : FVec Ideal S4x16384x512 .f32) (W : FVec Ideal S128x512 .f32) (b : Fin 4) (t : Fin 16384) (o : Fin 128) :
    Host.dotGeneral dot_S4x16384x512_S128x512_S4x16384x128_2_1_01_0_n_n none Y W (ix3 b t o) = Block.mix (fun o k => W (ix2 o k)) (fun k => Y (ix3 b t k)) o := by
  simp only [Host.dotGeneral]
  rw [Ideal.dotGeneral_apply, ← Equiv.sum_comp (ValueIdx.contrEquiv1 dot_S4x16384x512_S128x512_S4x16384x128_2_1_01_0_n_n 512 rfl rfl).symm, ← Block.mix_comm]
  refine Finset.sum_congr rfl fun k _ => ?_
  have hk := ValueIdx.contrEquiv1_symm_val dot_S4x16384x512_S128x512_S4x16384x128_2_1_01_0_n_n 512 rfl rfl k
  have el : dot_S4x16384x512_S128x512_S4x16384x128_2_1_01_0_n_n.lhsIdx (ix3 b t o) ((ValueIdx.contrEquiv1 dot_S4x16384x512_S128x512_S4x16384x128_2_1_01_0_n_n 512 rfl rfl).symm k) = ix3 b t k := funext fun a => Fin.ext (by
    match a with
    | ⟨0, _⟩ => exact dotHC_l0 _ _
    | ⟨1, _⟩ => exact dotHC_l1 _ _
    | ⟨2, _⟩ => exact ((dot_S4x16384x512_S128x512_S4x16384x128_2_1_01_0_n_n.lhsIdx_val_of_single rfl _ _).trans hk))
  have er : dot_S4x16384x512_S128x512_S4x16384x128_2_1_01_0_n_n.rhsIdx (ix3 b t o) ((ValueIdx.contrEquiv1 dot_S4x16384x512_S128x512_S4x16384x128_2_1_01_0_n_n 512 rfl rfl).symm k) = ix2 o k := funext fun a => Fin.ext (by
    match a with
    | ⟨0, _⟩ => exact dotHC_r0 _ _
    | ⟨1, _⟩ => exact ((dot_S4x16384x512_S128x512_S4x16384x128_2_1_01_0_n_n.rhsIdx_val_of_single rfl _ _).trans hk))
  rw [el, er]

/-! ## The stages, for an arbitrary input array -/

/-- The constant `1.0` over the token-major shape. -/
abbrev ones : FVec Ideal S4x16384x128 .f32 :=
  broadcastInDim S4x16384x128 ![] bcast_S_S4x16384x128 (constant (F := Ideal) S_ .f32 0x3F800000#32)

/-- The mean over the channels, kept with a unit channel axis. -/
def hMean (A : FVec Ideal S4x16384x128 .f32) : FVec Ideal S4x16384x1 .f32 :=
  Host.divf (broadcastInDim S4x16384x1 ![0, 1] bcast_S4x16384_S4x16384x1_0_1
      (Host.reduceAdd A (constant (F := Ideal) S_ .f32 0x00000000#32) reducesTo_S4x16384x128_S4x16384_d2 h_S_))
    (broadcastInDim S4x16384x1 ![] bcast_S_S4x16384x1 (constant (F := Ideal) S_ .f32 0x43000000#32))

theorem hMean_apply (A : FVec Ideal S4x16384x128 .f32) (b : Fin 4) (t : Fin 16384) (u : Fin 1) :
    hMean A (ix3 b t u) = Block.mean (fun k => A (ix3 b t k)) := by
  unfold hMean Block.mean
  rw [hdivf_apply, bc_tok_apply _ _ rfl, rowsum_apply, bc_scalar_apply, constant_apply, constant_apply, Block.ofBits_zero, zero_add]

/-- The array with its channel mean taken off. -/
abbrev centred (A : FVec Ideal S4x16384x128 .f32) : FVec Ideal S4x16384x128 .f32 :=
  subf A (broadcastInDim S4x16384x128 ![0, 1, 2] bcast_S4x16384x1_S4x16384x128_0_1_2 (hMean A))

/-- Layer normalisation over the channel axis. -/
def hLN (A : FVec Ideal S4x16384x128 .f32) (g b : FVec Ideal S128 .f32) : FVec Ideal S4x16384x128 .f32 :=
  addf (mulf (mulf (centred A)
        (broadcastInDim S4x16384x128 ![0, 1, 2] bcast_S4x16384x1_S4x16384x128_0_1_2
          (Host.rsqrt (addf (hMean (mulf (centred A) (centred A)))
            (broadcastInDim S4x16384x1 ![] bcast_S_S4x16384x1 (constant (F := Ideal) S_ .f32 0x3727C5AC#32))))))
      (broadcastInDim S4x16384x128 ![0, 1, 2] bcast_S1x1x128_S4x16384x128_0_1_2 (broadcastInDim S1x1x128 ![2] bcast_S128_S1x1x128_2 g)))
    (broadcastInDim S4x16384x128 ![0, 1, 2] bcast_S1x1x128_S4x16384x128_0_1_2 (broadcastInDim S1x1x128 ![2] bcast_S128_S1x1x128_2 b))

theorem hLN_apply (A : FVec Ideal S4x16384x128 .f32) (g b' : FVec Ideal S128 .f32) (b : Fin 4) (t : Fin 16384) (c : Fin 128) :
    hLN A g b' (ix3 b t c) = Block.ln (fun k => A (ix3 b t k)) (fun k => g (ix1 k)) (fun k => b' (ix1 k)) c := by
  simp only [hLN, Block.ln, Block.norm, centred, addf_apply, mulf_apply, subf_apply, bc_chan_apply, bc_par_apply, hrsqrt_apply,
    hMean_apply, bc_scalar_apply, constant_apply] <;> rfl

/-- The logistic function as the program spells it: `1 / (1 + exp (-y))`. -/
abbrev hSigmoid (Y : FVec Ideal S4x16384x128 .f32) : FVec Ideal S4x16384x128 .f32 :=
  Host.divf ones (addf ones (Host.exp (Host.negf Y)))

theorem hSigmoid_apply (Y : FVec Ideal S4x16384x128 .f32) (i : S4x16384x128.Idx) : hSigmoid Y i = Ideal.logistic (Y i) := by
  simp only [hSigmoid, ones, hdivf_apply, addf_apply, hexp_apply, hnegf_apply, bc_scalar_apply, constant_apply, Block.logistic_spelled]

/-- The residual after the spatial-mix branch. -/
def hSpatial (T : FVec Ideal S4x16384x128 .f32) (g b : FVec Ideal S128 .f32) (W : FVec Ideal S128x128 .f32) :
    FVec Ideal S4x16384x128 .f32 :=
  addf T (Host.dotGeneral dot_S4x16384x128_S128x128_S4x16384x128_2_1_01_0_n_n none (mulf (hSigmoid (hLN T g b)) (hLN T g b)) W)

theorem hSpatial_apply (T : FVec Ideal S4x16384x128 .f32) (g b' : FVec Ideal S128 .f32) (W : FVec Ideal S128x128 .f32)
    (b : Fin 4) (t : Fin 16384) (c : Fin 128) :
    hSpatial T g b' W (ix3 b t c)
      = Block.spatial (fun k => T (ix3 b t k)) (fun k => g (ix1 k)) (fun k => b' (ix1 k)) (fun o k => W (ix2 o k)) c := by
  simp only [hSpatial, Block.spatial, Block.silu, addf_apply, dotCC_apply, mulf_apply, hSigmoid_apply, hLN_apply] <;> rfl

/-- The zero array the rectifier compares with. -/
abbrev zeros512 : FVec Ideal S4x16384x512 .f32 :=
  broadcastInDim S4x16384x512 ![] bcast_S_S4x16384x512 (constant (F := Ideal) S_ .f32 0x00000000#32)

/-- The whitened tokens: the third normalisation projected by `W_whiten`. -/
abbrev hWhite (T : FVec Ideal S4x16384x128 .f32) (g b : FVec Ideal S128 .f32) (Wwh : FVec Ideal S128x128 .f32) :
    FVec Ideal S4x16384x128 .f32 :=
  Host.dotGeneral dot_S4x16384x128_S128x128_S4x16384x128_2_1_01_0_n_n none (hLN T g b) Wwh

/-- The block's output from the spatial-mix residual `T`: `T` plus the channel-mix branch. -/
def hChannel (T : FVec Ideal S4x16384x128 .f32) (g b : FVec Ideal S128 .f32) (Wwh : FVec Ideal S128x128 .f32)
    (Wkey : FVec Ideal S512x128 .f32) (Wrec : FVec Ideal S128x128 .f32) (Wval : FVec Ideal S128x512 .f32) :
    FVec Ideal S4x16384x128 .f32 :=
  addf T (mulf (hSigmoid (Host.dotGeneral dot_S4x16384x128_S128x128_S4x16384x128_2_1_01_0_n_n none (hWhite T g b Wwh) Wrec))
    (Host.dotGeneral dot_S4x16384x512_S128x512_S4x16384x128_2_1_01_0_n_n none
      (mulf (maximumf (Host.dotGeneral dot_S4x16384x128_S512x128_S4x16384x512_2_1_01_0_n_n none (hWhite T g b Wwh) Wkey) zeros512)
            (maximumf (Host.dotGeneral dot_S4x16384x128_S512x128_S4x16384x512_2_1_01_0_n_n none (hWhite T g b Wwh) Wkey) zeros512)) Wval))

theorem hChannel_apply (T : FVec Ideal S4x16384x128 .f32) (g b' : FVec Ideal S128 .f32) (Wwh : FVec Ideal S128x128 .f32)
    (Wkey : FVec Ideal S512x128 .f32) (Wrec : FVec Ideal S128x128 .f32) (Wval : FVec Ideal S128x512 .f32)
    (b : Fin 4) (t : Fin 16384) (c : Fin 128) :
    hChannel T g b' Wwh Wkey Wrec Wval (ix3 b t c)
      = T (ix3 b t c) + Block.channel (Block.mix (fun o k => Wwh (ix2 o k))
          (Block.ln (fun k => T (ix3 b t k)) (fun k => g (ix1 k)) (fun k => b' (ix1 k))))
          (fun o k => Wkey (ix2 o k)) (fun o k => Wrec (ix2 o k)) (fun o k => Wval (ix2 o k)) c := by
  simp only [hChannel, hWhite, zeros512, Block.channel, addf_apply, mulf_apply, maximumf_apply, hSigmoid_apply, dotCC_apply, dotCH_apply,
    dotHC_apply, hLN_apply, bc_scalar_apply, constant_apply, Block.ofBits_zero] <;> rfl

/-- The whole block on an input array. -/
def hBlock (A : FVec Ideal S4x16384x128 .f32) (g0 b0 g1 b1 g2 b2 : FVec Ideal S128 .f32) (Wout Wwh : FVec Ideal S128x128 .f32)
    (Wkey : FVec Ideal S512x128 .f32) (Wrec : FVec Ideal S128x128 .f32) (Wval : FVec Ideal S128x512 .f32) :
    FVec Ideal S4x16384x128 .f32 :=
  hChannel (hSpatial (hLN A g0 b0) g1 b1 Wout) g2 b2 Wwh Wkey Wrec Wval

/-- The block read at `(b, t, c)` is the token-level block of the input's row `(b, t, ·)`, at channel `c`. -/
theorem hBlock_apply (A : FVec Ideal S4x16384x128 .f32) (g0 b0 g1 b1 g2 b2 : FVec Ideal S128 .f32) (Wout Wwh : FVec Ideal S128x128 .f32)
    (Wkey : FVec Ideal S512x128 .f32) (Wrec : FVec Ideal S128x128 .f32) (Wval : FVec Ideal S128x512 .f32)
    (b : Fin 4) (t : Fin 16384) (c : Fin 128) :
    hBlock A g0 b0 g1 b1 g2 b2 Wout Wwh Wkey Wrec Wval (ix3 b t c)
      = Block.block (fun k => A (ix3 b t k)) (fun k => g0 (ix1 k)) (fun k => b0 (ix1 k)) (fun k => g1 (ix1 k)) (fun k => b1 (ix1 k))
          (fun k => g2 (ix1 k)) (fun k => b2 (ix1 k)) (fun o k => Wout (ix2 o k)) (fun o k => Wwh (ix2 o k))
          (fun o k => Wkey (ix2 o k)) (fun o k => Wrec (ix2 o k)) (fun o k => Wval (ix2 o k)) c := by
  simp only [hBlock, Block.block, hChannel_apply, hSpatial_apply, hLN_apply] <;> rfl

end Cert.RefSide

end
-- ==== Proof.RefValue.lean ====
/-
  The token-major program's result, as one function of its arguments.

  It applies the block to the image's tokens, then to the tokens of the spatially transposed image, transposes the
  second result back and adds. A token of the transposed image at position `(w, h)` is the image's token at `(h, w)`, and
  the block acts token by token, so both summands at pixel `(h, w)` are the block of that pixel's channel values.
-/
import proofs.«157856_j43731357008661_2_alg».proof.Proof.RefOps
import Idealize.ShloMosaic.Lib.ValueLayout

noncomputable section

namespace Cert.RefSide

open Cert.ReferenceIdeal Cert.ReferenceIdeal.Gen Idealize.ShloMosaic Idealize.ShloMosaic.ValueIdx

/-- The position of pixel `(h, w)` among the 16384 tokens of one image, row by row. -/
abbrev tk (h w : Fin 128) : Fin 16384 := ⟨h.val * 128 + w.val, by omega⟩

/-- The image as tokens: `[4, 128, 128, 128]` flattened to `[4, 128, 16384]`, channels moved last. -/
def tokens1 (x0 : FVec Ideal S4x128x128x128 .f32) : FVec Ideal S4x16384x128 .f32 :=
  transpose S4x16384x128 [0, 2, 1] (shapeCast _ x0 shapeCasts_S4x128x128x128_S4x128x16384) transposes_S4x128x16384_S4x16384x128_0_2_1

/-- The spatially transposed image as tokens. -/
def tokens2 (x0 : FVec Ideal S4x128x128x128 .f32) : FVec Ideal S4x16384x128 .f32 :=
  transpose S4x16384x128 [0, 2, 1]
    (shapeCast _ (transpose S4x128x128x128 [0, 1, 3, 2] x0 transposes_S4x128x128x128_S4x128x128x128_0_1_3_2) shapeCasts_S4x128x128x128_S4x128x16384)
    transposes_S4x128x16384_S4x16384x128_0_2_1

/-- Tokens back to an image: channels moved to axis 1, positions unflattened. -/
def untoken (Y : FVec Ideal S4x16384x128 .f32) : FVec Ideal S4x128x128x128 .f32 :=
  shapeCast _ (transpose S4x128x16384 [0, 2, 1] Y transposes_S4x16384x128_S4x128x16384_0_2_1) shapeCasts_S4x128x16384_S4x128x128x128

/-- The program's result: the block of the transposed image's tokens, transposed back, plus the block of the image's. -/
def refTerm (x0 : FVec Ideal S4x128x128x128 .f32) (x1 x2 x3 x4 x5 x6 : FVec Ideal S128 .f32) (x7 x8 : FVec Ideal S128x128 .f32) (x9 : FVec Ideal S512x128 .f32) (x10 : FVec Ideal S128x128 .f32) (x11 : FVec Ideal S128x512 .f32) : FVec Ideal S4x128x128x128 .f32 :=
  addf (transpose S4x128x128x128 [0, 1, 3, 2] (untoken (hBlock (tokens2 x0) x1 x2 x3 x4 x5 x6 x7 x8 x9 x10 x11)) transposes_S4x128x128x128_S4x128x128x128_0_1_3_2)
    (untoken (hBlock (tokens1 x0) x1 x2 x3 x4 x5 x6 x7 x8 x9 x10 x11))

/-- Channel `k` of the image's token at pixel `(h, w)`. -/
theorem tokens1_apply (x0 : FVec Ideal S4x128x128x128 .f32) (b : Fin 4) (h w k : Fin 128) :
    tokens1 x0 (ix3 b (tk h w) k) = x0 (ix4 b k h w) := by
  unfold tokens1
  rw [transpose_ix3_021_apply]
  have hb := b.isLt; have hh := h.isLt; have hw := w.isLt; have hk := k.isLt
  exact shapeCast_apply x0 shapeCasts_S4x128x128x128_S4x128x16384 (ix3 b k (tk h w)) (ix4 b k h w) (by
    rw [Shape.rowMajor_val_four, Shape.rowMajor_val_three]
    show ((b.val * 128 + k.val) * 128 + h.val) * 128 + w.val = (b.val * 128 + k.val) * 16384 + (h.val * 128 + w.val); omega)

/-- A spatial transposition read at `(b, c, h, w)`. -/
theorem swap_apply (Z : FVec Ideal S4x128x128x128 .f32) (b : Fin 4) (c h w : Fin 128) :
    transpose S4x128x128x128 [0, 1, 3, 2] Z transposes_S4x128x128x128_S4x128x128x128_0_1_3_2 (ix4 b c h w) = Z (ix4 b c w h) :=
  transpose_apply _ Z transposes_S4x128x128x128_S4x128x128x128_0_1_3_2 (ix4 b c h w) (ix4 b c w h) fun a =>
    match a with | ⟨0, _⟩ => rfl | ⟨1, _⟩ => rfl | ⟨2, _⟩ => rfl | ⟨3, _⟩ => rfl

/-- Channel `k` of the transposed image's token at position `(w, h)`: the image's pixel `(h, w)`. -/
theorem tokens2_apply (x0 : FVec Ideal S4x128x128x128 .f32) (b : Fin 4) (h w k : Fin 128) :
    tokens2 x0 (ix3 b (tk w h) k) = x0 (ix4 b k h w) := by
  unfold tokens2
  rw [transpose_ix3_021_apply]
  have hb := b.isLt; have hh := h.isLt; have hw := w.isLt; have hk := k.isLt
  refine (shapeCast_apply _ shapeCasts_S4x128x128x128_S4x128x16384 (ix3 b k (tk w h)) (ix4 b k w h) (by
    rw [Shape.rowMajor_val_four, Shape.rowMajor_val_three]
    show ((b.val * 128 + k.val) * 128 + w.val) * 128 + h.val = (b.val * 128 + k.val) * 16384 + (w.val * 128 + h.val); omega)).trans ?_
  exact swap_apply x0 b k w h

/-- Tokens back to an image, read at `(b, c, h, w)`: token `(h, w)`, channel `c`. -/
theorem untoken_apply (Y : FVec Ideal S4x16384x128 .f32) (b : Fin 4) (c h w : Fin 128) :
    untoken Y (ix4 b c h w) = Y (ix3 b (tk h w) c) := by
  unfold untoken
  have hb := b.isLt; have hh := h.isLt; have hw := w.isLt; have hc := c.isLt
  refine (shapeCast_apply _ shapeCasts_S4x128x16384_S4x128x128x128 (ix4 b c h w) (ix3 b c (tk h w)) (by
    rw [Shape.rowMajor_val_three, Shape.rowMajor_val_four]
    show (b.val * 128 + c.val) * 16384 + (h.val * 128 + w.val) = ((b.val * 128 + c.val) * 128 + h.val) * 128 + w.val; omega)).trans ?_
  exact transpose_ix3_021_apply Y transposes_S4x16384x128_S4x128x16384_0_2_1 b c (tk h w)

/-- The program's result is the block at every pixel, added to itself. -/
theorem result_eq (x0 : FVec Ideal S4x128x128x128 .f32) (x1 x2 x3 x4 x5 x6 : FVec Ideal S128 .f32) (x7 x8 : FVec Ideal S128x128 .f32) (x9 : FVec Ideal S512x128 .f32) (x10 : FVec Ideal S128x128 .f32) (x11 : FVec Ideal S128x512 .f32) :
    refTerm x0 x1 x2 x3 x4 x5 x6 x7 x8 x9 x10 x11 = Block.whole x0 x1 x2 x3 x4 x5 x6 x7 x8 x9 x10 x11 := by
  funext i
  obtain ⟨b, c, h, w, rfl⟩ : ∃ (b : Fin 4) (c : Fin 128) (h : Fin 128) (w : Fin 128), i = ix4 b c h w := ⟨i 0, i 1, i 2, i 3, eq_ix4 i⟩
  rw [Block.whole_apply]
  unfold refTerm
  rw [addf_apply, swap_apply, untoken_apply, untoken_apply, hBlock_apply, hBlock_apply]
  simp only [tokens1_apply, tokens2_apply]
  rfl

end Cert.RefSide

end
-- ==== Proof.RefRun.lean ====
/-
  The token-major program's run: every weakly fair execution terminates with the result array at `refTerm` of the
  argument arrays (Proof/RefValue.lean: the block of the transposed image's tokens, transposed back, plus the block of
  the image's tokens) and the arguments unchanged. The program is a straight line of host operations, so its final
  memory is the fold of their results; the result buffer's entry of that fold is the operations' composed term, which
  is `refTerm` with its stage functions unfolded.
-/
import proofs.«157856_j43731357008661_2_alg».proof.Proof.RefRunP
import proofs.«157856_j43731357008661_2_alg».proof.Proof.RefValue

noncomputable section

namespace Cert.RefSide

open Cert.ReferenceIdeal Cert.ReferenceIdeal.Gen Cert.ReferenceIdeal.Value Idealize.ShloMosaic Idealize.ShloMosaic.TcCoe Idealize.SL.Sem
open Idealize.ShloMosaic.StableHlo

set_option maxRecDepth 8192 in
set_option maxHeartbeats 97200000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v200) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v200).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.RefSide

end
-- ==== Proof.KerOps.lean ====
/-
  The channel-major program's body, read at an index.

  One grid point holds a `[128, 2048]` tile: channel by position. The body reduces over the channel axis (axis 0) and
  multiplies weight matrices from the left, so a stage read at `(c, p)` is the token-level function (Block.lean) of the
  tile's column `p`.
-/
import proofs.«157856_j43731357008661_2_alg».proof.Proof.Gen.KernelIdeal.Skeleton
import proofs.«157856_j43731357008661_2_alg».proof.Proof.Block
import Idealize.ShloMosaic.Lib.Pipeline.Value
import Idealize.ShloMosaic.Lib.ValueIdx
import Idealize.ShloMosaic.Lib.ValueLayout
import Idealize.ShloMosaic.PureOps.Ideal.Laws

noncomputable section

namespace Cert.KerSide

open Cert.KernelIdeal Cert.KernelIdeal.Gen Idealize.ShloMosaic Idealize.ShloMosaic.ValueIdx

/-! ## Elementary operations at an index -/

theorem rsqrt_apply {s : Shape} (x : FVec Ideal s .f32) (i : s.Idx) : rsqrt x i = Ideal.rsqrt (x i) := rfl
theorem logistic_apply {s : Shape} (x : FVec Ideal s .f32) (i : s.Idx) : logistic x i = Ideal.logistic (x i) := rfl
theorem scalar_ofBits (w : BitVec 32) : (Scalar.ofBits (F := Ideal) .f32 w) = Ideal.ofBits .f32 w := rfl

/-- A sum over the channel axis of a tile, read at position `p`. -/
theorem colsum_apply (axes : List (Fin S128x2048.rank)) (hax : axes = [0]) (X : FVec Ideal S128x2048 .f32)
    (h : S128x2048.Reduces axes S2048) (hacc : (0x00000000#32 : BitVec 32) = 0x00000000#32) (p : Fin 2048) :
    multiReduction .add axes S2048 X 0x00000000#32 h (.inl rfl) hacc (ix1 p) = ∑ k : Fin 128, X (ix2 k p) := by
  subst hax
  refine (Ideal.multiReduction_add_single X 0x00000000#32 h (.inl rfl) hacc (ix1 p)).trans ?_
  exact Finset.sum_congr rfl fun k _ => congrArg X (funext fun a => Fin.ext (by match a with | ⟨0, _⟩ => rfl | ⟨1, _⟩ => rfl))

/-- A per-position row given a unit channel axis. -/
theorem rowcast_apply (v : FVec Ideal S2048 .f32) (u : Fin 1) (p : Fin 2048) :
    shapeCast S1x2048 v shapeCasts_S2048_S1x2048 (ix2 u p) = v (ix1 p) :=
  shapeCast_a_1a_apply v shapeCasts_S2048_S1x2048 u p

/-- A per-position row spread over the channels. -/
theorem bc_row_apply (v : FVec Ideal S1x2048 .f32) (c : Fin 128) (p : Fin 2048) :
    broadcastTo S128x2048 v broadcasts_S1x2048_S128x2048 (ix2 c p) = v (ix2 (0 : Fin 1) p) :=
  broadcastTo_1b_ab_apply v broadcasts_S1x2048_S128x2048 c p

/-- A per-channel column spread over the positions. -/
theorem bc_col_apply (g : FVec Ideal S128x1 .f32) (c : Fin 128) (p : Fin 2048) :
    broadcastTo S128x2048 g broadcasts_S128x1_S128x2048 (ix2 c p) = g (ix2 c (0 : Fin 1)) := by
  refine broadcastTo_apply g broadcasts_S128x1_S128x2048 (ix2 c p) (ix2 c (0 : Fin 1)) fun ax => ?_
  match ax with
  | ⟨0, _⟩ => show c.val = if (128 : Nat) = 1 then 0 else c.val; rw [if_neg (by decide)]
  | ⟨1, _⟩ => show 0 = if (1 : Nat) = 1 then 0 else p.val; rw [if_pos rfl]

/-- The tile with its leading unit axis dropped. -/
theorem tile_apply (x : FVec Ideal S1x128x2048 .f32) (c : Fin 128) (p : Fin 2048) :
    shapeCast S128x2048 x shapeCasts_S1x128x2048_S128x2048 (ix2 c p) = x (ix3 (0 : Fin 1) c p) :=
  shapeCast_1ab_ab_apply x shapeCasts_S1x128x2048_S128x2048 c p

/-- The tile with a leading unit axis added. -/
theorem untile_apply (y : FVec Ideal S128x2048 .f32) (u : Fin 1) (c : Fin 128) (p : Fin 2048) :
    shapeCast S1x128x2048 y shapeCasts_S128x2048_S1x128x2048 (ix3 u c p) = y (ix2 c p) :=
  shapeCast_ab_1ab_apply y shapeCasts_S128x2048_S1x128x2048 u c p

/-- The first 512 rows of a 640-row product. -/
theorem keyrows_apply (off : Fin S640x2048.rank → Nat) (hoff : off = ![0, 0]) (Y : FVec Ideal S640x2048 .f32)
    (hs : S640x2048.Slices off S512x2048) (h : Fin 512) (p : Fin 2048) :
    extractStridedSlice S512x2048 off Y hs (ix2 h p) = Y (ix2 (⟨h.val, by omega⟩ : Fin 640) p) := by
  subst hoff
  exact slice2_axis0_apply 0 Y hs h p ⟨h.val, by omega⟩ (Nat.zero_add _).symm

/-- Its last 128 rows. -/
theorem recrows_apply (off : Fin S640x2048.rank → Nat) (hoff : off = ![512, 0]) (Y : FVec Ideal S640x2048 .f32)
    (hs : S640x2048.Slices off S128x2048) (c : Fin 128) (p : Fin 2048) :
    extractStridedSlice S128x2048 off Y hs (ix2 c p) = Y (ix2 (⟨512 + c.val, by omega⟩ : Fin 640) p) := by
  subst hoff
  exact slice2_axis0_apply 512 Y hs c p ⟨512 + c.val, by omega⟩ rfl

theorem mmCC_l0 (i : S128x2048.Idx) (q : dot_S128x128_S128x2048_S128x2048_1_0_0_1_n_n.contr.Idx) : (dot_S128x128_S128x2048_S128x2048_1_0_0_1_n_n.lhsIdx i q 0).val = (i 0).val := by
  unfold DotDims.lhsIdx
  rw [dif_neg (show ¬(0 : Fin S128x128.rank) ∈ dot_S128x128_S128x2048_S128x2048_1_0_0_1_n_n.lhsBatch by decide), dif_pos (show (0 : Fin S128x128.rank) ∈ dot_S128x128_S128x2048_S128x2048_1_0_0_1_n_n.lhsNonContracting by decide)]
  rfl
theorem mmCC_r1 (i : S128x2048.Idx) (q : dot_S128x128_S128x2048_S128x2048_1_0_0_1_n_n.contr.Idx) : (dot_S128x128_S128x2048_S128x2048_1_0_0_1_n_n.rhsIdx i q 1).val = (i 1).val := by
  unfold DotDims.rhsIdx
  rw [dif_neg (show ¬(1 : Fin S128x2048.rank) ∈ dot_S128x128_S128x2048_S128x2048_1_0_0_1_n_n.rhsBatch by decide), dif_pos (show (1 : Fin S128x2048.rank) ∈ dot_S128x128_S128x2048_S128x2048_1_0_0_1_n_n.rhsNonContracting by decide)]
  rfl
/-- A matrix product into a zero accumulator, read at `(o, p)`: row `o` of `W` against column `p` of `X`. -/
theorem mmCC_apply (W : FVec Ideal S128x128 .bf16) (X : FVec Ideal S128x2048 .bf16) (o : Fin 128) (p : Fin 2048) :
    matmul dot_S128x128_S128x2048_S128x2048_1_0_0_1_n_n none W X (constant (F := Ideal) S128x2048 .f32 0x00000000#32) (ix2 o p)
      = Block.mix (fun o k => W (ix2 o k)) (fun k => X (ix2 k p)) o := by
  refine (Ideal.matmul_constant_zero_apply dot_S128x128_S128x2048_S128x2048_1_0_0_1_n_n none W X (ix2 o p)).trans ?_
  unfold Block.mix
  rw [← Equiv.sum_comp (ValueIdx.contrEquiv1 dot_S128x128_S128x2048_S128x2048_1_0_0_1_n_n 128 rfl rfl).symm]
  refine Finset.sum_congr rfl fun k _ => ?_
  have hk := ValueIdx.contrEquiv1_symm_val dot_S128x128_S128x2048_S128x2048_1_0_0_1_n_n 128 rfl rfl k
  have el : dot_S128x128_S128x2048_S128x2048_1_0_0_1_n_n.lhsIdx (ix2 o p) ((ValueIdx.contrEquiv1 dot_S128x128_S128x2048_S128x2048_1_0_0_1_n_n 128 rfl rfl).symm k) = ix2 o k := funext fun a => Fin.ext (by
    match a with
    | ⟨0, _⟩ => exact mmCC_l0 _ _
    | ⟨1, _⟩ => exact ((dot_S128x128_S128x2048_S128x2048_1_0_0_1_n_n.lhsIdx_val_of_single rfl _ _).trans hk))
  have er : dot_S128x128_S128x2048_S128x2048_1_0_0_1_n_n.rhsIdx (ix2 o p) ((ValueIdx.contrEquiv1 dot_S128x128_S128x2048_S128x2048_1_0_0_1_n_n 128 rfl rfl).symm k) = ix2 k p := funext fun a => Fin.ext (by
    match a with
    | ⟨0, _⟩ => exact ((dot_S128x128_S128x2048_S128x2048_1_0_0_1_n_n.rhsIdx_val_of_single rfl _ _).trans hk)
    | ⟨1, _⟩ => exact mmCC_r1 _ _)
  rw [el, er]

theorem mmKR_l0 (i : S640x2048.Idx) (q : dot_S640x128_S128x2048_S640x2048_1_0_0_1_n_n.contr.Idx) : (dot_S640x128_S128x2048_S640x2048_1_0_0_1_n_n.lhsIdx i q 0).val = (i 0).val := by
  unfold DotDims.lhsIdx
  rw [dif_neg (show ¬(0 : Fin S640x128.rank) ∈ dot_S640x128_S128x2048_S640x2048_1_0_0_1_n_n.lhsBatch by decide), dif_pos (show (0 : Fin S640x128.rank) ∈ dot_S640x128_S128x2048_S640x2048_1_0_0_1_n_n.lhsNonContracting by decide)]
  rfl
theorem mmKR_r1 (i : S640x2048.Idx) (q : dot_S640x128_S128x2048_S640x2048_1_0_0_1_n_n.contr.Idx) : (dot_S640x128_S128x2048_S640x2048_1_0_0_1_n_n.rhsIdx i q 1).val = (i 1).val := by
  unfold DotDims.rhsIdx
  rw [dif_neg (show ¬(1 : Fin S128x2048.rank) ∈ dot_S640x128_S128x2048_S640x2048_1_0_0_1_n_n.rhsBatch by decide), dif_pos (show (1 : Fin S128x2048.rank) ∈ dot_S640x128_S128x2048_S640x2048_1_0_0_1_n_n.rhsNonContracting by decide)]
  rfl
/-- A matrix product into a zero accumulator, read at `(o, p)`: row `o` of `W` against column `p` of `X`. -/
theorem mmKR_apply (W : FVec Ideal S640x128 .bf16) (X : FVec Ideal S128x2048 .bf16) (o : Fin 640) (p : Fin 2048) :
    matmul dot_S640x128_S128x2048_S640x2048_1_0_0_1_n_n none W X (constant (F := Ideal) S640x2048 .f32 0x00000000#32) (ix2 o p)
      = Block.mix (fun o k => W (ix2 o k)) (fun k => X (ix2 k p)) o := by
  refine (Ideal.matmul_constant_zero_apply dot_S640x128_S128x2048_S640x2048_1_0_0_1_n_n none W X (ix2 o p)).trans ?_
  unfold Block.mix
  rw [← Equiv.sum_comp (ValueIdx.contrEquiv1 dot_S640x128_S128x2048_S640x2048_1_0_0_1_n_n 128 rfl rfl).symm]
  refine Finset.sum_congr rfl fun k _ => ?_
  have hk := ValueIdx.contrEquiv1_symm_val dot_S640x128_S128x2048_S640x2048_1_0_0_1_n_n 128 rfl rfl k
  have el : dot_S640x128_S128x2048_S640x2048_1_0_0_1_n_n.lhsIdx (ix2 o p) ((ValueIdx.contrEquiv1 dot_S640x128_S128x2048_S640x2048_1_0_0_1_n_n 128 rfl rfl).symm k) = ix2 o k := funext fun a => Fin.ext (by
    match a with
    | ⟨0, _⟩ => exact mmKR_l0 _ _
    | ⟨1, _⟩ => exact ((dot_S640x128_S128x2048_S640x2048_1_0_0_1_n_n.lhsIdx_val_of_single rfl _ _).trans hk))
  have er : dot_S640x128_S128x2048_S640x2048_1_0_0_1_n_n.rhsIdx (ix2 o p) ((ValueIdx.contrEquiv1 dot_S640x128_S128x2048_S640x2048_1_0_0_1_n_n 128 rfl rfl).symm k) = ix2 k p := funext fun a => Fin.ext (by
    match a with
    | ⟨0, _⟩ => exact ((dot_S640x128_S128x2048_S640x2048_1_0_0_1_n_n.rhsIdx_val_of_single rfl _ _).trans hk)
    | ⟨1, _⟩ => exact mmKR_r1 _ _)
  rw [el, er]

theorem mmVH_l0 (i : S128x2048.Idx) (q : dot_S128x512_S512x2048_S128x2048_1_0_0_1_n_n.contr.Idx) : (dot_S128x512_S512x2048_S128x2048_1_0_0_1_n_n.lhsIdx i q 0).val = (i 0).val := by
  unfold DotDims.lhsIdx
  rw [dif_neg (show ¬(0 : Fin S128x512.rank) ∈ dot_S128x512_S512x2048_S128x2048_1_0_0_1_n_n.lhsBatch by decide), dif_pos (show (0 : Fin S128x512.rank) ∈ dot_S128x512_S512x2048_S128x2048_1_0_0_1_n_n.lhsNonContracting by decide)]
  rfl
theorem mmVH_r1 (i : S128x2048.Idx) (q : dot_S128x512_S512x2048_S128x2048_1_0_0_1_n_n.contr.Idx) : (dot_S128x512_S512x2048_S128x2048_1_0_0_1_n_n.rhsIdx i q 1).val = (i 1).val := by
  unfold DotDims.rhsIdx
  rw [dif_neg (show ¬(1 : Fin S512x2048.rank) ∈ dot_S128x512_S512x2048_S128x2048_1_0_0_1_n_n.rhsBatch by decide), dif_pos (show (1 : Fin S512x2048.rank) ∈ dot_S128x512_S512x2048_S128x2048_1_0_0_1_n_n.rhsNonContracting by decide)]
  rfl
/-- A matrix product into a zero accumulator, read at `(o, p)`: row `o` of `W` against column `p` of `X`. -/
theorem mmVH_apply (W : FVec Ideal S128x512 .bf16) (X : FVec Ideal S512x2048 .bf16) (o : Fin 128) (p : Fin 2048) :
    matmul dot_S128x512_S512x2048_S128x2048_1_0_0_1_n_n none W X (constant (F := Ideal) S128x2048 .f32 0x00000000#32) (ix2 o p)
      = Block.mix (fun o k => W (ix2 o k)) (fun k => X (ix2 k p)) o := by
  refine (Ideal.matmul_constant_zero_apply dot_S128x512_S512x2048_S128x2048_1_0_0_1_n_n none W X (ix2 o p)).trans ?_
  unfold Block.mix
  rw [← Equiv.sum_comp (ValueIdx.contrEquiv1 dot_S128x512_S512x2048_S128x2048_1_0_0_1_n_n 512 rfl rfl).symm]
  refine Finset.sum_congr rfl fun k _ => ?_
  have hk := ValueIdx.contrEquiv1_symm_val dot_S128x512_S512x2048_S128x2048_1_0_0_1_n_n 512 rfl rfl k
  have el : dot_S128x512_S512x2048_S128x2048_1_0_0_1_n_n.lhsIdx (ix2 o p) ((ValueIdx.contrEquiv1 dot_S128x512_S512x2048_S128x2048_1_0_0_1_n_n 512 rfl rfl).symm k) = ix2 o k := funext fun a => Fin.ext (by
    match a with
    | ⟨0, _⟩ => exact mmVH_l0 _ _
    | ⟨1, _⟩ => exact ((dot_S128x512_S512x2048_S128x2048_1_0_0_1_n_n.lhsIdx_val_of_single rfl _ _).trans hk))
  have er : dot_S128x512_S512x2048_S128x2048_1_0_0_1_n_n.rhsIdx (ix2 o p) ((ValueIdx.contrEquiv1 dot_S128x512_S512x2048_S128x2048_1_0_0_1_n_n 512 rfl rfl).symm k) = ix2 k p := funext fun a => Fin.ext (by
    match a with
    | ⟨0, _⟩ => exact ((dot_S128x512_S512x2048_S128x2048_1_0_0_1_n_n.rhsIdx_val_of_single rfl _ _).trans hk)
    | ⟨1, _⟩ => exact mmVH_r1 _ _)
  rw [el, er]

/-! ## The payloads -/

/-- The first normalisation of the tile, at `(c, p)`. -/
theorem pay6_apply (x0 : FVec Ideal S1x128x2048 .f32) (g b : FVec Ideal S128x1 .f32) (c : Fin 128) (p : Fin 2048) :
    k0_pay6 (F := Ideal) x0 g b (ix2 c p)
      = Block.ln (fun k => x0 (ix3 (0 : Fin 1) k p)) (fun k => g (ix2 k (0 : Fin 1))) (fun k => b (ix2 k (0 : Fin 1))) c := by
  unfold k0_pay6
  simp only [Block.ln, Block.norm, Block.mean, addf_apply, mulf_apply, subf_apply, divf_apply, rsqrt_apply, broadcast_apply, bc_col_apply,
    bc_row_apply, rowcast_apply, colsum_apply, tile_apply, shapeCast_self, scalar_ofBits] <;> rfl

/-- Its channel sums, at position `p`. -/
theorem pay7_apply (x0 : FVec Ideal S1x128x2048 .f32) (g b : FVec Ideal S128x1 .f32) (p : Fin 2048) :
    k0_pay7 (F := Ideal) x0 g b (ix1 p) = ∑ k : Fin 128, k0_pay6 (F := Ideal) x0 g b (ix2 k p) := by
  unfold k0_pay7
  exact colsum_apply _ rfl _ _ _ p

/-- The residual after the spatial-mix branch, from a tile `T` and its channel sums `s`. -/
theorem pay8_apply (g b : FVec Ideal S128x1 .f32) (T : FVec Ideal S128x2048 .f32) (s : FVec Ideal S2048 .f32)
    (W : FVec Ideal S128x128 .bf16) (hs : ∀ p : Fin 2048, s (ix1 p) = ∑ k : Fin 128, T (ix2 k p)) (c : Fin 128) (p : Fin 2048) :
    k0_pay8 (F := Ideal) g b T s W (ix2 c p)
      = Block.spatial (fun k => T (ix2 k p)) (fun k => g (ix2 k (0 : Fin 1))) (fun k => b (ix2 k (0 : Fin 1))) (fun o k => W (ix2 o k)) c := by
  unfold k0_pay8
  simp only [Block.spatial, Block.silu, Block.ln, Block.norm, Block.mean, addf_apply, mulf_apply, subf_apply, divf_apply, rsqrt_apply,
    logistic_apply, truncf_apply, broadcast_apply, bc_col_apply, bc_row_apply, rowcast_apply, colsum_apply, mmCC_apply, shapeCast_self,
    scalar_ofBits, hs] <;> rfl

/-- The third normalisation without its shift, from the spatial-mix residual. -/
theorem pay9_apply (g b g2 : FVec Ideal S128x1 .f32) (T : FVec Ideal S128x2048 .f32) (s : FVec Ideal S2048 .f32)
    (W : FVec Ideal S128x128 .bf16) (c : Fin 128) (p : Fin 2048) :
    k0_pay9 (F := Ideal) g b g2 T s W (ix2 c p)
      = Block.norm (fun k => k0_pay8 (F := Ideal) g b T s W (ix2 k p)) (fun k => g2 (ix2 k (0 : Fin 1))) c := by
  unfold k0_pay9
  simp only [Block.norm, Block.mean, addf_apply, mulf_apply, subf_apply, divf_apply, rsqrt_apply, broadcast_apply, bc_col_apply,
    bc_row_apply, rowcast_apply, colsum_apply, scalar_ofBits] <;> rfl

/-- The stored tile: twice the spatial-mix residual `T1` plus the channel-mix branch of the normalised residual `N + b2`. -/
theorem pay1_apply (b2 : FVec Ideal S128x1 .f32) (T1 N : FVec Ideal S128x2048 .f32) (Wwh : FVec Ideal S128x128 .bf16)
    (Wkr : FVec Ideal S640x128 .bf16) (Wval : FVec Ideal S128x512 .bf16) (u : Fin 1) (c : Fin 128) (p : Fin 2048) :
    k0_pay1 (F := Ideal) b2 T1 N Wwh Wkr Wval (ix3 u c p)
      = Ideal.ofBits .f32 0x40000000#32 * (T1 (ix2 c p)
          + Block.channel (Block.mix (fun o k => Wwh (ix2 o k)) (fun k => N (ix2 k p) + b2 (ix2 k (0 : Fin 1))))
              (fun h k => Wkr (ix2 (⟨h.val, by omega⟩ : Fin 640) k)) (fun o k => Wkr (ix2 (⟨512 + o.val, by omega⟩ : Fin 640) k))
              (fun o h => Wval (ix2 o h)) c) := by
  unfold k0_pay1
  simp only [Block.channel, Block.mix, untile_apply, addf_apply, mulf_apply, maximumf_apply, logistic_apply, truncf_apply, broadcast_apply,
    bc_col_apply, keyrows_apply, recrows_apply, mmCC_apply, mmKR_apply, mmVH_apply, shapeCast_self, scalar_ofBits, Block.ofBits_zero] <;> rfl

end Cert.KerSide

end
-- ==== Proof.KerValue.lean ====
/-
  The channel-major program's output array, as one function of the arrays the region finds.

  The grid has 4 × 8 points; point `(bi, ti)` reads the tile `[bi, :, 2048·ti : 2048·(ti+1)]` of the `[4, 128, 16384]` input
  and writes the same tile of the output, the eleven parameter windows being whole arrays at every point. Column `p` of
  the tile is token `2048·ti + p` of image `bi`, so the output at `(b, c, T)` is twice the block of the input's column
  `(b, ·, T)`, at channel `c`; the tiles cover the output.
-/
import proofs.«157856_j43731357008661_2_alg».proof.Proof.Gen.KernelIdeal.Frame
import proofs.«157856_j43731357008661_2_alg».proof.Proof.KerOps

set_option maxRecDepth 16384

noncomputable section

namespace Cert.KerSide

open Cert.KernelIdeal Cert.KernelIdeal.Gen Idealize.ShloMosaic Idealize.ShloMosaic.ValueIdx Idealize.SL.Sem
open Idealize.ShloMosaic.Pipeline (Dat)

/-- Twice the block of column `(b, ·, T)` of `X`, at channel `c`; the key and receptance weights are the first 512 and
    the last 128 rows of the stacked matrix `Wkr`. -/
def tileSpec (X : FVec Ideal S4x128x16384 .f32) (g0 b0 g1 b1 g2 b2 : FVec Ideal S128x1 .f32) (Wout Wwh : FVec Ideal S128x128 .bf16)
    (Wkr : FVec Ideal S640x128 .bf16) (Wval : FVec Ideal S128x512 .bf16) : FVec Ideal S4x128x16384 .f32 :=
  fun i => Ideal.ofBits .f32 0x40000000#32 *
    Block.block (fun k => X (ix3 (n0 := 4) (n1 := 128) (n2 := 16384) (i 0) k (i 2)))
      (fun k => g0 (ix2 k (0 : Fin 1))) (fun k => b0 (ix2 k (0 : Fin 1))) (fun k => g1 (ix2 k (0 : Fin 1))) (fun k => b1 (ix2 k (0 : Fin 1)))
      (fun k => g2 (ix2 k (0 : Fin 1))) (fun k => b2 (ix2 k (0 : Fin 1))) (fun o k => Wout (ix2 o k)) (fun o k => Wwh (ix2 o k))
      (fun h k => Wkr (ix2 (⟨h.val, by omega⟩ : Fin 640) k)) (fun o k => Wkr (ix2 (⟨512 + o.val, by omega⟩ : Fin 640) k))
      (fun o h => Wval (ix2 o h)) (i 1)

theorem tileSpec_apply (X : FVec Ideal S4x128x16384 .f32) (g0 b0 g1 b1 g2 b2 : FVec Ideal S128x1 .f32) (Wout Wwh : FVec Ideal S128x128 .bf16)
    (Wkr : FVec Ideal S640x128 .bf16) (Wval : FVec Ideal S128x512 .bf16) (b : Fin 4) (c : Fin 128) (T : Fin 16384) :
    tileSpec X g0 b0 g1 b1 g2 b2 Wout Wwh Wkr Wval (ix3 b c T)
      = Ideal.ofBits .f32 0x40000000#32 *
        Block.block (fun k => X (ix3 b k T))
          (fun k => g0 (ix2 k (0 : Fin 1))) (fun k => b0 (ix2 k (0 : Fin 1))) (fun k => g1 (ix2 k (0 : Fin 1))) (fun k => b1 (ix2 k (0 : Fin 1)))
          (fun k => g2 (ix2 k (0 : Fin 1))) (fun k => b2 (ix2 k (0 : Fin 1))) (fun o k => Wout (ix2 o k)) (fun o k => Wwh (ix2 o k))
          (fun h k => Wkr (ix2 (⟨h.val, by omega⟩ : Fin 640) k)) (fun o k => Wkr (ix2 (⟨512 + o.val, by omega⟩ : Fin 640) k))
          (fun o h => Wval (ix2 o h)) c := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output tile, from the tiles it loads: at `(c, p)` twice the block of column `p`. -/
theorem out_apply (x0 : FVec Ideal S1x128x2048 .f32) (x1 x2 x3 x4 x5 x6 : FVec Ideal S128x1 .f32) (x7 x8 : FVec Ideal S128x128 .bf16)
    (x9 : FVec Ideal S640x128 .bf16) (x10 : FVec Ideal S128x512 .bf16) (u : Fin 1) (c : Fin 128) (p : Fin 2048) :
    out0_11 (F := Ideal) x0 x1 x2 x3 x4 x5 x6 x7 x8 x9 x10 (ix3 u c p)
      = Ideal.ofBits .f32 0x40000000#32 *
        Block.block (fun k => x0 (ix3 (0 : Fin 1) k p))
          (fun k => x1 (ix2 k (0 : Fin 1))) (fun k => x2 (ix2 k (0 : Fin 1))) (fun k => x3 (ix2 k (0 : Fin 1))) (fun k => x4 (ix2 k (0 : Fin 1)))
          (fun k => x5 (ix2 k (0 : Fin 1))) (fun k => x6 (ix2 k (0 : Fin 1))) (fun o k => x7 (ix2 o k)) (fun o k => x8 (ix2 o k))
          (fun h k => x9 (ix2 (⟨h.val, by omega⟩ : Fin 640) k)) (fun o k => x9 (ix2 (⟨512 + o.val, by omega⟩ : Fin 640) k))
          (fun o h => x10 (ix2 o h)) c := by
  unfold out0_11
  rw [View.canon_unit_zero hz3]
  simp only [View.ld_unit_zero (S := S1x128x2048) hz3, View.ld_unit_zero (S := S128x1) hz2, View.ld_unit_zero (S := S128x128) hz2,
    View.ld_unit_zero (S := S640x128) hz2, View.ld_unit_zero (S := S128x512) hz2]
  simp only [k0_pay2, k0_pay3, k0_pay4, k0_pay5, shapeCast_self]
  rw [pay1_apply]
  simp only [pay9_apply, pay8_apply x3 x4 (k0_pay6 (F := Ideal) x0 x1 x2) (k0_pay7 (F := Ideal) x0 x1 x2) x7 (pay7_apply x0 x1 x2), pay6_apply]
  rfl

/-- The printed index maps over the 32 grid points: the input tile and the output tile move together, along the batch
    axis and the position axis only, and every parameter window stays at its one block. -/
theorem idx_facts : ∀ t : Fin cfg0.N,
    win0_0.index t (0 : Fin 3) = win0_11.index t (0 : Fin 3) ∧ win0_0.index t (1 : Fin 3) = 0
    ∧ win0_0.index t (2 : Fin 3) = win0_11.index t (2 : Fin 3) ∧ win0_11.index t (1 : Fin 3) = 0
    ∧ win0_11.index t (0 : Fin 3) ≤ 3 ∧ win0_11.index t (2 : Fin 3) ≤ 7
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 2) = 0 ∧ win0_7.index t (1 : Fin 2) = 0 ∧ win0_8.index t (0 : Fin 2) = 0 ∧ win0_8.index t (1 : Fin 2) = 0
    ∧ win0_9.index t (0 : Fin 2) = 0 ∧ win0_9.index t (1 : Fin 2) = 0 ∧ win0_10.index t (0 : Fin 2) = 0 ∧ win0_10.index t (1 : Fin 2) = 0 :=
  (by decide +kernel : ∀ t : Fin grid0.N, _)

/-- Every tile of the output is some point's. -/
theorem idx_onto : ∀ (q0 : Fin 4) (q2 : Fin 8), ∃ t : Fin cfg0.N, win0_11.index t = ![q0.val, 0, q2.val] :=
  (by decide +kernel : ∀ (q0 : Fin 4) (q2 : Fin 8), ∃ t : Fin grid0.N, win0_11.index t = ![q0.val, 0, q2.val])

variable (m : (ℓ : Loc nD τ sig) → Buf (Elt Ideal) ℓ)

/-- What point `t` writes back is tile `t` of `tileSpec` of the arrays as the region finds them. -/
theorem flushed_eq (c : Dev nD) (t : Fin cfg0.N) :
    (dats m 0 c).flushed 11 t = ((cfg0.win 11).blk t).view.read (Elt Ideal) (tileSpec (V m c main_v0) (V m c main_v1) (V m c main_v2) (V m c main_v3) (V m c main_v4) (V m c main_v5) (V m c main_v6) (V m c main_v7) (V m c main_v8) (V m c main_v10) (V m c main_v11)) := by
  show (cfg0.win 11).cut (grid0.coords t) ((dats m 0 c).after 11 t) = _
  rw [after0_11]
  obtain ⟨e0, e1, e2, e3, l0, l2, p1a, p1b, p2a, p2b, p3a, p3b, p4a, p4b, p5a, p5b, p6a, p6b, p7a, p7b, p8a, p8b, p9a, p9b, p10a, p10b⟩ := idx_facts t
  funext y
  obtain ⟨u, cc, p, rfl⟩ : ∃ (u : Fin 1) (cc : Fin 128) (p : Fin 2048), y = ix3 u cc p := ⟨y 0, y 1, y 2, eq_ix3 y⟩
  have hu : u.val = 0 := by omega
  have hcc := cc.isLt; have hp := p.isLt
  refine (out_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) u cc p).trans ?_
  -- the output tile's index in the array
  have hout : ((cfg0.win 11).blk t).view.emb (ix3 u cc p)
      = ix3 (n0 := 4) (n1 := 128) (n2 := 16384) ⟨win0_11.index t (0 : Fin 3), by omega⟩ cc ⟨win0_11.index t (2 : Fin 3) * 2048 + p.val, by omega⟩ := by
    funext a; apply Fin.ext
    match a with
    | ⟨0, _⟩ => show win0_11.index t (0 : Fin 3) * 1 + 1 * u.val = win0_11.index t (0 : Fin 3); omega
    | ⟨1, _⟩ => show win0_11.index t (1 : Fin 3) * 128 + 1 * cc.val = cc.val; omega
    | ⟨2, _⟩ => show win0_11.index t (2 : Fin 3) * 2048 + 1 * p.val = win0_11.index t (2 : Fin 3) * 2048 + p.val; omega
  show _ = tileSpec (V m c main_v0) (V m c main_v1) (V m c main_v2) (V m c main_v3) (V m c main_v4) (V m c main_v5) (V m c main_v6) (V m c main_v7) (V m c main_v8) (V m c main_v10) (V m c main_v11) (((cfg0.win 11).blk t).view.emb (ix3 u cc p))
  rw [hout, tileSpec_apply]
  -- each loaded tile, read where the output's column says
  have r0 : ∀ k : Fin 128, iblk m c 0 t (ix3 (0 : Fin 1) k p)
      = V m c main_v0 (ix3 (n0 := 4) (n1 := 128) (n2 := 16384) ⟨win0_11.index t (0 : Fin 3), by omega⟩ k ⟨win0_11.index t (2 : Fin 3) * 2048 + p.val, by omega⟩) := fun k => by
    have hk := k.isLt
    show V m c main_v0 (((cfg0.win 0).blk t).view.emb (ix3 (0 : Fin 1) k p)) = _
    refine congrArg (V m c main_v0) (funext fun a => Fin.ext ?_)
    match a with
    | ⟨0, _⟩ => show win0_0.index t (0 : Fin 3) * 1 + 1 * 0 = win0_11.index t (0 : Fin 3); omega
    | ⟨1, _⟩ => show win0_0.index t (1 : Fin 3) * 128 + 1 * k.val = k.val; omega
    | ⟨2, _⟩ => show win0_0.index t (2 : Fin 3) * 2048 + 1 * p.val = win0_11.index t (2 : Fin 3) * 2048 + p.val; omega
  have r1 : ∀ k : Fin 128, iblk m c 1 t (ix2 k (0 : Fin 1)) = V m c main_v1 (ix2 k (0 : Fin 1)) := fun k => by
    show V m c main_v1 (((cfg0.win 1).blk t).view.emb (ix2 k (0 : Fin 1))) = _
    refine congrArg (V m c main_v1) (funext fun a => Fin.ext ?_)
    match a with
    | ⟨0, _⟩ => show win0_1.index t (0 : Fin 2) * 128 + 1 * k.val = k.val; omega
    | ⟨1, _⟩ => show win0_1.index t (1 : Fin 2) * 1 + 1 * 0 = 0; omega
  have r2 : ∀ k : Fin 128, iblk m c 2 t (ix2 k (0 : Fin 1)) = V m c main_v2 (ix2 k (0 : Fin 1)) := fun k => by
    show V m c main_v2 (((cfg0.win 2).blk t).view.emb (ix2 k (0 : Fin 1))) = _
    refine congrArg (V m c main_v2) (funext fun a => Fin.ext ?_)
    match a with
    | ⟨0, _⟩ => show win0_2.index t (0 : Fin 2) * 128 + 1 * k.val = k.val; omega
    | ⟨1, _⟩ => show win0_2.index t (1 : Fin 2) * 1 + 1 * 0 = 0; omega
  have r3 : ∀ k : Fin 128, iblk m c 3 t (ix2 k (0 : Fin 1)) = V m c main_v3 (ix2 k (0 : Fin 1)) := fun k => by
    show V m c main_v3 (((cfg0.win 3).blk t).view.emb (ix2 k (0 : Fin 1))) = _
    refine congrArg (V m c main_v3) (funext fun a => Fin.ext ?_)
    match a with
    | ⟨0, _⟩ => show win0_3.index t (0 : Fin 2) * 128 + 1 * k.val = k.val; omega
    | ⟨1, _⟩ => show win0_3.index t (1 : Fin 2) * 1 + 1 * 0 = 0; omega
  have r4 : ∀ k : Fin 128, iblk m c 4 t (ix2 k (0 : Fin 1)) = V m c main_v4 (ix2 k (0 : Fin 1)) := fun k => by
    show V m c main_v4 (((cfg0.win 4).blk t).view.emb (ix2 k (0 : Fin 1))) = _
    refine congrArg (V m c main_v4) (funext fun a => Fin.ext ?_)
    match a with
    | ⟨0, _⟩ => show win0_4.index t (0 : Fin 2) * 128 + 1 * k.val = k.val; omega
    | ⟨1, _⟩ => show win0_4.index t (1 : Fin 2) * 1 + 1 * 0 = 0; omega
  have r5 : ∀ k : Fin 128, iblk m c 5 t (ix2 k (0 : Fin 1)) = V m c main_v5 (ix2 k (0 : Fin 1)) := fun k => by
    show V m c main_v5 (((cfg0.win 5).blk t).view.emb (ix2 k (0 : Fin 1))) = _
    refine congrArg (V m c main_v5) (funext fun a => Fin.ext ?_)
    match a with
    | ⟨0, _⟩ => show win0_5.index t (0 : Fin 2) * 128 + 1 * k.val = k.val; omega
    | ⟨1, _⟩ => show win0_5.index t (1 : Fin 2) * 1 + 1 * 0 = 0; omega
  have r6 : ∀ k : Fin 128, iblk m c 6 t (ix2 k (0 : Fin 1)) = V m c main_v6 (ix2 k (0 : Fin 1)) := fun k => by
    show V m c main_v6 (((cfg0.win 6).blk t).view.emb (ix2 k (0 : Fin 1))) = _
    refine congrArg (V m c main_v6) (funext fun a => Fin.ext ?_)
    match a with
    | ⟨0, _⟩ => show win0_6.index t (0 : Fin 2) * 128 + 1 * k.val = k.val; omega
    | ⟨1, _⟩ => show win0_6.index t (1 : Fin 2) * 1 + 1 * 0 = 0; omega
  have r7 : ∀ (o : Fin 128) (k : Fin 128), iblk m c 7 t (ix2 o k) = V m c main_v7 (ix2 o k) := fun o k => by
    show V m c main_v7 (((cfg0.win 7).blk t).view.emb (ix2 o k)) = _
    refine congrArg (V m c main_v7) (funext fun a => Fin.ext ?_)
    match a with
    | ⟨0, _⟩ => show win0_7.index t (0 : Fin 2) * 128 + 1 * o.val = o.val; omega
    | ⟨1, _⟩ => show win0_7.index t (1 : Fin 2) * 128 + 1 * k.val = k.val; omega
  have r8 : ∀ (o : Fin 128) (k : Fin 128), iblk m c 8 t (ix2 o k) = V m c main_v8 (ix2 o k) := fun o k => by
    show V m c main_v8 (((cfg0.win 8).blk t).view.emb (ix2 o k)) = _
    refine congrArg (V m c main_v8) (funext fun a => Fin.ext ?_)
    match a with
    | ⟨0, _⟩ => show win0_8.index t (0 : Fin 2) * 128 + 1 * o.val = o.val; omega
    | ⟨1, _⟩ => show win0_8.index t (1 : Fin 2) * 128 + 1 * k.val = k.val; omega
  have r9 : ∀ (o : Fin 640) (k : Fin 128), iblk m c 9 t (ix2 o k) = V m c main_v10 (ix2 o k) := fun o k => by
    show V m c main_v10 (((cfg0.win 9).blk t).view.emb (ix2 o k)) = _
    refine congrArg (V m c main_v10) (funext fun a => Fin.ext ?_)
    match a with
    | ⟨0, _⟩ => show win0_9.index t (0 : Fin 2) * 640 + 1 * o.val = o.val; omega
    | ⟨1, _⟩ => show win0_9.index t (1 : Fin 2) * 128 + 1 * k.val = k.val; omega
  have r10 : ∀ (o : Fin 128) (k : Fin 512), iblk m c 10 t (ix2 o k) = V m c main_v11 (ix2 o k) := fun o k => by
    show V m c main_v11 (((cfg0.win 10).blk t).view.emb (ix2 o k)) = _
    refine congrArg (V m c main_v11) (funext fun a => Fin.ext ?_)
    match a with
    | ⟨0, _⟩ => show win0_10.index t (0 : Fin 2) * 128 + 1 * o.val = o.val; omega
    | ⟨1, _⟩ => show win0_10.index t (1 : Fin 2) * 512 + 1 * k.val = k.val; omega
  simp only [r0, r1, r2, r3, r4, r5, r6, r7, r8, r9, r10]

/-- An index of the output array is in point `t`'s tile iff each coordinate is in the tile's range. -/
theorem mem_blk (t : Fin cfg0.N) (i : S4x128x16384.Idx) :
    i ∈ ((cfg0.win 11).blk t).view.set ↔ ∀ a : Fin 3, win0_11.index t a * S1x128x2048.size a ≤ (i a).val
      ∧ (i a).val < win0_11.index t a * S1x128x2048.size a + S1x128x2048.size a := by
  show i ∈ ((View.whole main_v12).slice (win0_11.rect t)).set ↔ _
  rw [View.set_slice_whole, Rect.mem_set_unit]
  exact Iff.rfl

/-- The tiles cover the output array. -/
theorem cover (i : S4x128x16384.Idx) : ∃ t : Fin cfg0.N, (cfg0.win 11).flush t = true ∧ i ∈ ((cfg0.win 11).blk t).view.set := by
  have hi0 : (i 0).val < 4 := (i 0).isLt
  have hi1 : (i 1).val < 128 := (i 1).isLt
  have hi2 : (i 2).val < 16384 := (i 2).isLt
  obtain ⟨t, ht⟩ := idx_onto ⟨(i 0).val, by omega⟩ ⟨(i 2).val / 2048, by omega⟩
  have q0 : win0_11.index t (0 : Fin 3) = (i 0).val := congrFun ht 0
  have q1 : win0_11.index t (1 : Fin 3) = 0 := congrFun ht 1
  have q2 : win0_11.index t (2 : Fin 3) = (i 2).val / 2048 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 128 ≤ (i 1).val ∧ (i 1).val < win0_11.index t (1 : Fin 3) * 128 + 128; omega
  | ⟨2, _⟩ => show win0_11.index t (2 : Fin 3) * 2048 ≤ (i 2).val ∧ (i 2).val < win0_11.index t (2 : Fin 3) * 2048 + 2048; omega

/-- The output array after the run. -/
theorem final (c : Dev nD) : (dats m 0 c).arrAt 11 cfg0.N = tileSpec (V m c main_v0) (V m c main_v1) (V m c main_v2) (V m c main_v3) (V m c main_v4) (V m c main_v5) (V m c main_v6) (V m c main_v7) (V m c main_v8) (V m c main_v10) (V m c main_v11) :=
  (dats m 0 c).arrAt_eq_of_cover 11 _ (fun t _ => flushed_eq m c t) cover

end Cert.KerSide

end
-- ==== Proof.KerRun.lean ====
/-
  The channel-major program's result, as one function of its arguments.

  Before the region the image is reshaped to `[4, 128, 16384]` (pixel `(h, w)` becomes token `128·h + w`), each
  parameter vector to a column, and the weights are narrowed (the identity on extended reals), the key and receptance
  matrices stacked; after it the output is reshaped back. So the result at `(b, c, h, w)` is twice the block of the
  pixel's channel values, which is that value added to itself.
-/
import proofs.«157856_j43731357008661_2_alg».proof.Proof.KerValue
import Idealize.ShloMosaic.Lib.StableHlo.Run

set_option maxRecDepth 16384

noncomputable section

namespace Cert.KerSide

open Cert.KernelIdeal Cert.KernelIdeal.Gen Idealize.ShloMosaic Idealize.ShloMosaic.ValueIdx Idealize.ShloMosaic.TcCoe Idealize.SL.Sem
open Idealize.ShloMosaic.StableHlo

variable (m : (ℓ : Loc nD τ sig) → Buf (Elt Ideal) ℓ)

/-! ## The arrays the region finds -/

theorem V_v0 (c : Dev nD) : (V m c main_v0 : S4x128x16384.Idx → EReal)
    = shapeCast S4x128x16384 (m ((c : Thread nD τ).loc main_arg0)) shapeCasts_S4x128x128x128_S4x128x16384 := by
  show StableHlo.after hostOps0 (fun b => m (c, b)) (Proc.devRef .tc main_v0) = _
  after_results; rfl

/-- Token `128·h + w` of the reshaped image is pixel `(h, w)`. -/
theorem img_apply (c : Dev nD) (b : Fin 4) (k h w : Fin 128) :
    V m c main_v0 (ix3 (n0 := 4) (n1 := 128) (n2 := 16384) b k ⟨h.val * 128 + w.val, by omega⟩) = (m ((c : Thread nD τ).loc main_arg0)) (ix4 b k h w) := by
  rw [V_v0]
  exact shapeCast_apply _ shapeCasts_S4x128x128x128_S4x128x16384 _ (ix4 b k h w) (by
    rw [Shape.rowMajor_val_four, Shape.rowMajor_val_three]
    show ((b.val * 128 + k.val) * 128 + h.val) * 128 + w.val = (b.val * 128 + k.val) * 16384 + (h.val * 128 + w.val); omega)

theorem V_v1 (c : Dev nD) : (V m c main_v1 : S128x1.Idx → EReal)
    = shapeCast S128x1 (m ((c : Thread nD τ).loc main_arg1)) shapeCasts_S128_S128x1 := by
  show StableHlo.after hostOps0 (fun b => m (c, b)) (Proc.devRef .tc main_v1) = _
  after_results; rfl
theorem par1_apply (c : Dev nD) (k : Fin 128) : V m c main_v1 (ix2 k (0 : Fin 1)) = (m ((c : Thread nD τ).loc main_arg1)) (ix1 k) := by
  rw [V_v1]
  exact shapeCast_apply _ shapeCasts_S128_S128x1 (ix2 k (0 : Fin 1)) (ix1 k) (by
    rw [Shape.rowMajor_val_one, Shape.rowMajor_val_two]; show k.val = k.val * 1 + 0; omega)
theorem V_v2 (c : Dev nD) : (V m c main_v2 : S128x1.Idx → EReal)
    = shapeCast S128x1 (m ((c : Thread nD τ).loc main_arg2)) shapeCasts_S128_S128x1 := by
  show StableHlo.after hostOps0 (fun b => m (c, b)) (Proc.devRef .tc main_v2) = _
  after_results; rfl
theorem par2_apply (c : Dev nD) (k : Fin 128) : V m c main_v2 (ix2 k (0 : Fin 1)) = (m ((c : Thread nD τ).loc main_arg2)) (ix1 k) := by
  rw [V_v2]
  exact shapeCast_apply _ shapeCasts_S128_S128x1 (ix2 k (0 : Fin 1)) (ix1 k) (by
    rw [Shape.rowMajor_val_one, Shape.rowMajor_val_two]; show k.val = k.val * 1 + 0; omega)
theorem V_v3 (c : Dev nD) : (V m c main_v3 : S128x1.Idx → EReal)
    = shapeCast S128x1 (m ((c : Thread nD τ).loc main_arg3)) shapeCasts_S128_S128x1 := by
  show StableHlo.after hostOps0 (fun b => m (c, b)) (Proc.devRef .tc main_v3) = _
  after_results; rfl
theorem par3_apply (c : Dev nD) (k : Fin 128) : V m c main_v3 (ix2 k (0 : Fin 1)) = (m ((c : Thread nD τ).loc main_arg3)) (ix1 k) := by
  rw [V_v3]
  exact shapeCast_apply _ shapeCasts_S128_S128x1 (ix2 k (0 : Fin 1)) (ix1 k) (by
    rw [Shape.rowMajor_val_one, Shape.rowMajor_val_two]; show k.val = k.val * 1 + 0; omega)
theorem V_v4 (c : Dev nD) : (V m c main_v4 : S128x1.Idx → EReal)
    = shapeCast S128x1 (m ((c : Thread nD τ).loc main_arg4)) shapeCasts_S128_S128x1 := by
  show StableHlo.after hostOps0 (fun b => m (c, b)) (Proc.devRef .tc main_v4) = _
  after_results; rfl
theorem par4_apply (c : Dev nD) (k : Fin 128) : V m c main_v4 (ix2 k (0 : Fin 1)) = (m ((c : Thread nD τ).loc main_arg4)) (ix1 k) := by
  rw [V_v4]
  exact shapeCast_apply _ shapeCasts_S128_S128x1 (ix2 k (0 : Fin 1)) (ix1 k) (by
    rw [Shape.rowMajor_val_one, Shape.rowMajor_val_two]; show k.val = k.val * 1 + 0; omega)
theorem V_v5 (c : Dev nD) : (V m c main_v5 : S128x1.Idx → EReal)
    = shapeCast S128x1 (m ((c : Thread nD τ).loc main_arg5)) shapeCasts_S128_S128x1 := by
  show StableHlo.after hostOps0 (fun b => m (c, b)) (Proc.devRef .tc main_v5) = _
  after_results; rfl
theorem par5_apply (c : Dev nD) (k : Fin 128) : V m c main_v5 (ix2 k (0 : Fin 1)) = (m ((c : Thread nD τ).loc main_arg5)) (ix1 k) := by
  rw [V_v5]
  exact shapeCast_apply _ shapeCasts_S128_S128x1 (ix2 k (0 : Fin 1)) (ix1 k) (by
    rw [Shape.rowMajor_val_one, Shape.rowMajor_val_two]; show k.val = k.val * 1 + 0; omega)
theorem V_v6 (c : Dev nD) : (V m c main_v6 : S128x1.Idx → EReal)
    = shapeCast S128x1 (m ((c : Thread nD τ).loc main_arg6)) shapeCasts_S128_S128x1 := by
  show StableHlo.after hostOps0 (fun b => m (c, b)) (Proc.devRef .tc main_v6) = _
  after_results; rfl
theorem par6_apply (c : Dev nD) (k : Fin 128) : V m c main_v6 (ix2 k (0 : Fin 1)) = (m ((c : Thread nD τ).loc main_arg6)) (ix1 k) := by
  rw [V_v6]
  exact shapeCast_apply _ shapeCasts_S128_S128x1 (ix2 k (0 : Fin 1)) (ix1 k) (by
    rw [Shape.rowMajor_val_one, Shape.rowMajor_val_two]; show k.val = k.val * 1 + 0; omega)

/-- The narrowed output-projection weights are the weights. -/
theorem wout_apply (c : Dev nD) (o : Fin 128) (k : Fin 128) : V m c main_v7 (ix2 o k) = (m ((c : Thread nD τ).loc main_arg7)) (ix2 o k) := by
  show StableHlo.after hostOps0 (fun b => m (c, b)) (Proc.devRef .tc main_v7) (ix2 o k) = _
  after_results; rfl

/-- The narrowed whitening weights are the weights. -/
theorem wwh_apply (c : Dev nD) (o : Fin 128) (k : Fin 128) : V m c main_v8 (ix2 o k) = (m ((c : Thread nD τ).loc main_arg8)) (ix2 o k) := by
  show StableHlo.after hostOps0 (fun b => m (c, b)) (Proc.devRef .tc main_v8) (ix2 o k) = _
  after_results; rfl

/-- The narrowed value weights are the weights. -/
theorem wval_apply (c : Dev nD) (o : Fin 128) (k : Fin 512) : V m c main_v11 (ix2 o k) = (m ((c : Thread nD τ).loc main_arg11)) (ix2 o k) := by
  show StableHlo.after hostOps0 (fun b => m (c, b)) (Proc.devRef .tc main_v11) (ix2 o k) = _
  after_results; rfl

/-- The stacked matrix's first 512 rows are the key weights. -/
theorem keyw_apply (c : Dev nD) (h : Fin 512) (k : Fin 128) :
    V m c main_v10 (ix2 (⟨h.val, by omega⟩ : Fin 640) k) = (m ((c : Thread nD τ).loc main_arg9)) (ix2 h k) := by
  show StableHlo.after hostOps0 (fun b => m (c, b)) (Proc.devRef .tc main_v10) (ix2 (⟨h.val, by omega⟩ : Fin 640) k) = _
  after_results
  exact concatenate_pair_apply_left 0 _ _ concatenates_S512x128_S128x128_S640x128_d0 _ rfl (ix2 h k) (fun b => by
    match b with
    | ⟨0, _⟩ => rfl
    | ⟨1, _⟩ => rfl)

/-- Its last 128 rows are the receptance weights. -/
theorem recw_apply (c : Dev nD) (o k : Fin 128) :
    V m c main_v10 (ix2 (⟨512 + o.val, by omega⟩ : Fin 640) k) = (m ((c : Thread nD τ).loc main_arg10)) (ix2 o k) := by
  show StableHlo.after hostOps0 (fun b => m (c, b)) (Proc.devRef .tc main_v10) (ix2 (⟨512 + o.val, by omega⟩ : Fin 640) k) = _
  after_results
  exact concatenate_pair_apply_right 0 _ _ concatenates_S512x128_S128x128_S640x128_d0 _ rfl rfl (ix2 o k) (fun b hb => by
    match b with
    | ⟨0, _⟩ => exact absurd rfl hb
    | ⟨1, _⟩ => rfl) (by show o.val + 512 = 512 + o.val; omega)

/-! ## The result -/

/-- The output array reshaped back is the block at every pixel, added to itself. -/
theorem reshaped_eq (c : Dev nD) :
    shapeCast S4x128x128x128 (tileSpec (V m c main_v0) (V m c main_v1) (V m c main_v2) (V m c main_v3) (V m c main_v4) (V m c main_v5) (V m c main_v6) (V m c main_v7) (V m c main_v8) (V m c main_v10) (V m c main_v11)) shapeCasts_S4x128x16384_S4x128x128x128
      = Block.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨b, cc, h, w, rfl⟩ : ∃ (b : Fin 4) (cc : Fin 128) (h : Fin 128) (w : Fin 128), i = ix4 b cc h w := ⟨i 0, i 1, i 2, i 3, eq_ix4 i⟩
  have hb := b.isLt; have hc := cc.isLt; have hh := h.isLt; have hw := w.isLt
  rw [Block.whole_apply]
  refine (shapeCast_apply _ shapeCasts_S4x128x16384_S4x128x128x128 (ix4 b cc h w)
    (ix3 (n0 := 4) (n1 := 128) (n2 := 16384) b cc ⟨h.val * 128 + w.val, by omega⟩) (by
      rw [Shape.rowMajor_val_four, Shape.rowMajor_val_three]
      show (b.val * 128 + cc.val) * 16384 + (h.val * 128 + w.val) = ((b.val * 128 + cc.val) * 128 + h.val) * 128 + w.val; omega)).trans ?_
  rw [tileSpec_apply, Block.ofBits_two, Block.two_mul_eq_add]
  have e0 : (fun k : Fin 128 => V m c main_v0 (ix3 (n0 := 4) (n1 := 128) (n2 := 16384) b k ⟨h.val * 128 + w.val, by omega⟩))
      = fun k => (m ((c : Thread nD τ).loc main_arg0)) (ix4 b k h w) := funext fun k => img_apply m c b k h w
  have e1 : (fun k : Fin 128 => V m c main_v1 (ix2 k (0 : Fin 1))) = fun k => (m ((c : Thread nD τ).loc main_arg1)) (ix1 k) := funext fun k => par1_apply m c k
  have e2 : (fun k : Fin 128 => V m c main_v2 (ix2 k (0 : Fin 1))) = fun k => (m ((c : Thread nD τ).loc main_arg2)) (ix1 k) := funext fun k => par2_apply m c k
  have e3 : (fun k : Fin 128 => V m c main_v3 (ix2 k (0 : Fin 1))) = fun k => (m ((c : Thread nD τ).loc main_arg3)) (ix1 k) := funext fun k => par3_apply m c k
  have e4 : (fun k : Fin 128 => V m c main_v4 (ix2 k (0 : Fin 1))) = fun k => (m ((c : Thread nD τ).loc main_arg4)) (ix1 k) := funext fun k => par4_apply m c k
  have e5 : (fun k : Fin 128 => V m c main_v5 (ix2 k (0 : Fin 1))) = fun k => (m ((c : Thread nD τ).loc main_arg5)) (ix1 k) := funext fun k => par5_apply m c k
  have e6 : (fun k : Fin 128 => V m c main_v6 (ix2 k (0 : Fin 1))) = fun k => (m ((c : Thread nD τ).loc main_arg6)) (ix1 k) := funext fun k => par6_apply m c k
  have e7 : (fun (o k : Fin 128) => V m c main_v7 (ix2 o k)) = fun o k => (m ((c : Thread nD τ).loc main_arg7)) (ix2 o k) :=
    funext fun o => funext fun k => wout_apply m c o k
  have e8 : (fun (o k : Fin 128) => V m c main_v8 (ix2 o k)) = fun o k => (m ((c : Thread nD τ).loc main_arg8)) (ix2 o k) :=
    funext fun o => funext fun k => wwh_apply m c o k
  have e9 : (fun (r : Fin 512) (k : Fin 128) => V m c main_v10 (ix2 (⟨r.val, by omega⟩ : Fin 640) k)) = fun r k => (m ((c : Thread nD τ).loc main_arg9)) (ix2 r k) :=
    funext fun r => funext fun k => keyw_apply m c r k
  have e10 : (fun (o k : Fin 128) => V m c main_v10 (ix2 (⟨512 + o.val, by omega⟩ : Fin 640) k)) = fun o k => (m ((c : Thread nD τ).loc main_arg10)) (ix2 o k) :=
    funext fun o => funext fun k => recw_apply m c o k
  have e11 : (fun (o : Fin 128) (r : Fin 512) => V m c main_v11 (ix2 o r)) = fun o r => (m ((c : Thread nD τ).loc main_arg11)) (ix2 o r) :=
    funext fun o => funext fun r => wval_apply m c o r
  rw [e0, e1, e2, e3, e4, e5, e6, e7, e8, e9, e10, e11]
  rfl

/-- The result buffer after the host tail. -/
theorem tail_eq (c : Dev nD) :
    Pipeline.afterTail₀ cfgs (dats m) 0 (V0 m) [hostOps1] c main_v13 = Block.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Pipeline.afterTail₀
  show StableHlo.after hostOps1 _ (Proc.devRef .tc main_v13) = _
  after_results
  rw [(Pipeline.withArrays_arr spec0 launch0.win.arr_inj c _ _ 11).trans (final m c)]
  exact reshaped_eq m c

/-- Every weakly fair execution of the program terminates with the result at `whole` of the arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v13) = Block.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KerSide

end
-- ==== Proof.lean ====
/-
  A channel-major fused kernel for one residual block (three layer normalisations over the 128 channels, a gated
  projection, and a squared-rectifier feed-forward branch gated by a logistic) against a token-major reference that
  applies the block to the image and to its spatial transpose, transposes the second result back and adds the two.

  Every operation of the block acts on the channel values of one pixel, so the block is one function `block` on
  `Fin 128 → EReal` applied pixel by pixel (Proof/Block.lean). The reference's two summands at a pixel are both `block` of
  that pixel (the transposed image's token at `(w, h)` is the image's token at `(h, w)`), and the kernel stores `2 · block`.
  The two agree because doubling an extended real is adding it to itself, at the infinities too; the matrix products
  agree because the products commute and both sides sum over the same channel index; the kernel's one logistic operation
  is the reference's `1 / (1 + exp (-y))` by definition. No finiteness of the inputs is used.

  Both programs' results are shown equal to `Block.whole` of the arguments: the reference's in Proof/RefValue.lean over
  its operations read at an index (Proof/RefOps.lean) and its run (Proof/RefRun.lean), the kernel's in Proof/KerRun.lean over the tile a grid point
  computes (Proof/KerOps.lean) and the tiles' cover of the output array (Proof/KerValue.lean).
-/
import proofs.«157856_j43731357008661_2_alg».proof.Defs
import proofs.«157856_j43731357008661_2_alg».proof.Proof.Gen.Kernel
import proofs.«157856_j43731357008661_2_alg».proof.Proof.Gen.Kernel.Skeleton
import proofs.«157856_j43731357008661_2_alg».proof.Proof.Gen.Kernel.Launch
import proofs.«157856_j43731357008661_2_alg».proof.Proof.Gen.Kernel.Points
import proofs.«157856_j43731357008661_2_alg».proof.Proof.Gen.Kernel.Frame
import proofs.«157856_j43731357008661_2_alg».proof.Proof.Gen.KernelIdeal
import proofs.«157856_j43731357008661_2_alg».proof.Proof.Gen.KernelIdeal.Skeleton
import proofs.«157856_j43731357008661_2_alg».proof.Proof.Gen.KernelIdeal.Launch
import proofs.«157856_j43731357008661_2_alg».proof.Proof.Gen.KernelIdeal.Points
import proofs.«157856_j43731357008661_2_alg».proof.Proof.Gen.KernelIdeal.Frame
import proofs.«157856_j43731357008661_2_alg».proof.Proof.Gen.ReferenceIdeal
import proofs.«157856_j43731357008661_2_alg».proof.Proof.Gen.Pre_finite_inputs
import proofs.«157856_j43731357008661_2_alg».proof.Proof.RefRun
import proofs.«157856_j43731357008661_2_alg».proof.Proof.KerRun
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.RefSide.run m ρ)

/-- Both idealized programs, from memories agreeing on the arguments, end with the block at every pixel added to
    itself in their result arrays. -/
theorem algebraic : Cert.algebraic_KernelIdeal_ReferenceIdeal := by
  intro m ρ m' ρ' _ hagree
  refine ⟨fun c => Cert.Block.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), Cert.KerSide.run m ρ, ?_⟩
  refine (θ_run Cert.ReferenceIdeal.defs _ _).mono (fun _ h c => ⟨?_, (h c).2⟩) (Cert.RefSide.run m' ρ')
  obtain ⟨e0, e1, e2, e3, e4, e5, e6, e7, e8, e9, e10, e11⟩ := hagree c
  rw [(h c).1, Cert.RefSide.result_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
